-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x1024 .f32) (main_arg1 : IVec S2x1600000 32) (main_arg2 : FVec F S1024x64 .f32) (main_arg3 : FVec F S64 .f32) (main_arg4 : FVec F S64x32 .f32) (main_arg5 : FVec F S32 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x64 .f32 := Host.absf main_arg2
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S2000x1024 : Shape := ⟨2, ![2000, 1024]⟩
abbrev S2000x1 : Shape := ⟨2, ![2000, 1]⟩
abbrev S2000x64 : Shape := ⟨2, ![2000, 64]⟩
abbrev S1700000x64 : Shape := ⟨2, ![1700000, 64]⟩
abbrev S1x64 : Shape := ⟨2, ![1, 64]⟩
abbrev S100000x32 : Shape := ⟨2, ![100000, 32]⟩
abbrev S10000x64 : Shape := ⟨2, ![10000, 64]⟩
abbrev S10000x1 : Shape := ⟨2, ![10000, 1]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 62
  | .vmem => 15
  | .smem => 0
  | _ => 0

abbrev bufTy : (tb : Table) → Fin (tcTables nBuf tb) → BufTy
  | .hbm, ⟨0, _⟩ => ⟨S100000x1024, .f32⟩
  | .hbm, ⟨1, _⟩ => ⟨S2x1600000, .i32⟩
  | .hbm, ⟨2, _⟩ => ⟨S1024x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .f32⟩
  | .hbm, ⟨38, _⟩ => ⟨S_, .f32⟩
  | .hbm, ⟨39, _⟩ => ⟨S100000x64, .f32⟩
  | .hbm, ⟨40, _⟩ => ⟨S1700000x1, .i32⟩
  | .hbm, ⟨41, _⟩ => ⟨S100000x64, .f32⟩
  | .hbm, ⟨42, _⟩ => ⟨S1x64, .f32⟩
  | .hbm, ⟨43, _⟩ => ⟨S100000x32, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x32, .f32⟩
  | .hbm, ⟨53, _⟩ => ⟨S_, .f32⟩
  | .hbm, ⟨54, _⟩ => ⟨S100000x32, .f32⟩
  | .hbm, ⟨55, _⟩ => ⟨S1700000x1, .i32⟩
  | .hbm, ⟨56, _⟩ => ⟨S100000x32, .f32⟩
  | .hbm, ⟨57, _⟩ => ⟨S100000x32, .f32⟩
  | .hbm, ⟨58, _⟩ => ⟨S100000x32, .f32⟩
  | .hbm, ⟨59, _⟩ => ⟨S1x32, .f32⟩
  | .hbm, ⟨60, _⟩ => ⟨S100000x32, .f32⟩
  | .hbm, ⟨61, _⟩ => ⟨S100000x32, .f32⟩
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x1024_S2000x1024_0_0 : ∀ a, (![0, 0] : Fin 2 → Nat) a + S2000x1024.size a ≤ S2000x1024.size a
  h_S2000x1024 : 0 < S2000x1024.numel
  inb_S1024x64_S1024x64_0_0 : ∀ a, (![0, 0] : Fin 2 → Nat) a + S1024x64.size a ≤ S1024x64.size a
  h_S1024x64 : 0 < S1024x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S2000x1024_S1024x64_S2000x64_1_0_0_1_n_n_wf : DotDims.WF S2000x1024 S1024x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x1024, .f32⟩
  | .hbm, ⟨1, _⟩ => ⟨S2x1600000, .i32⟩
  | .hbm, ⟨2, _⟩ => ⟨S1024x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x32, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1024_S1024x64_S100000x64_1_0_0_1_n_n_wf : DotDims.WF S100000x1024 S1024x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel program's run, with its result kept.

  @main of the kernel program is seven segments in a row: three stretches of host operations (the edge lists with their
  self loops, the node degrees, the inverse square roots of the degrees), the first kernel over its fifty row blocks, a
  stretch (gather the scaled rows at the edge sources, add them up at the edge destinations), the second kernel over its
  ten row blocks, and a last stretch (gather, add up, scale by the destination's factor, add the bias). The contents of
  every buffer at each boundary between segments are a fold from the launch memory, `W0` … `W7`: a host stretch applies
  its operations, a kernel replaces its arrays by what its write-backs leave.

  Every weakly fair execution terminates without a fault in a state whose unscoped buffers hold the last boundary's
  contents `W7`. The frame claim keeps, of that, only the six argument arrays; here the same run is read once more keeping
  ALSO the result buffer `main_v43`, which is what a claim about the kernel's value needs.
-/
import proofs.«139203_j38070590112102_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program's @main terminates, nothing faulting, with the result buffer at the
    last boundary's contents `W7` and the six argument arrays as launched. -/
theorem run_result : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.FiniteInputs.lean ====
/-
  The precondition "every float input is finite", read back as plain facts about the argument arrays, with floats
  as extended reals.

  The precondition is the predicate  all(|a| < +inf)  taken over each of the five float arguments and joined by
  "and"; the claim's hypothesis says its one-element result is the word 1.  Three observations decode it.

  1. A conjunction of one-bit words is 1 exactly when both words are 1, so the joined result splits into the five
     separate  all(...) = 1  facts.
  2. all(p), a reduction of the one-bit array p by "and" over every axis starting from 1, is 1 only if p is 1 at
     every index.
  3. At an index i the array p is the comparison  |a i| < +inf.  Over the extended reals |x| is max x (-x), the bit
     pattern 0x7F800000 is the top element, and  max x (-x) < top  forces  x ≠ top  (else the left operand is top)
     and  x ≠ bot  (else -x is top).  An extended real that is neither top nor bot is a real number.

  So every entry of every float argument is (the embedding of) a real number.
-/
import proofs.«139203_j38070590112102_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic Cert.Pre_finite_inputs

/-- A rank-0 array has exactly one index (there is no axis to give a coordinate on). -/
instance subsingleton_scalar_idx : Subsingleton S_.Idx := ⟨fun a b => funext fun d => d.elim0⟩

/-- The f32 bit pattern 0x7F800000 (sign 0, exponent all ones, mantissa 0) denotes +inf, the top extended real. -/
theorem inf_bits : Ideal.ofBits .f32 0x7F800000#32 = (⊤ : EReal) := by simp [Ideal.ofBits, Ideal.ieee]

/-- An extended real whose absolute value max x (-x) lies strictly below +inf is a real number:
    x ≤ max x (-x) < ⊤ rules out x = ⊤, and -x ≤ max x (-x) < ⊤ rules out x = ⊥ (whose negation is ⊤). -/
theorem real_of_abs_lt_top (x : EReal) (h : max x (-x) < ⊤) : ∃ r : ℝ, x = (r : EReal) := by
  obtain ⟨hx, hnx⟩ := max_lt_iff.1 h
  have hx_top : x ≠ ⊤ := ne_of_lt hx
  have hx_bot : x ≠ ⊥ := by
    rintro rfl
    exact absurd hnx (by simp)
  lift x to ℝ using ⟨hx_top, hx_bot⟩
  exact ⟨x, rfl⟩

/-- A one-bit word made from a Boolean is 1 exactly when the Boolean is true. -/
theorem ofBool_eq_one (b : Bool) : BitVec.ofBool b = 1#1 ↔ b = true := by cases b <;> decide

/-- One element of the precondition, at any shape: if the comparison |a| < +inf (the +inf a rank-0 constant
    broadcast to the array's shape) is the word 1 at index i, then a i is a real number. -/
theorem real_of_lt_inf {S : Shape} (hb : S_.BroadcastsInDim S (![] : Fin 0 → Fin S.rank)) (a : FVec Ideal S .f32) (i : S.Idx)
    (h : cmpf .olt (Host.absf a) (broadcastInDim S ![] hb (constant (F := Ideal) S_ .f32 0x7F800000#32)) i = 1#1) :
    ∃ r : ℝ, a i = (r : EReal) := by
  -- at index i the comparison is the order's  max (a i) (-(a i)) < ofBits 0x7F800000 : the broadcast of a constant
  -- reads the constant everywhere
  have h' : Ideal.cmp .olt (max (a i) (-(a i))) (Ideal.ofBits .f32 0x7F800000#32) = 1#1 := h
  rw [inf_bits] at h'
  unfold Ideal.cmp at h'
  rw [ofBool_eq_one] at h'
  exact real_of_abs_lt_top (a i) (of_decide_eq_true h')

/-- THE PRECONDITION DECODED: if the finiteness predicate of the six arguments is the word 1, every entry of each of
    the five float arguments is a real number (the integer edge list, argument 1, is not constrained by it). -/
theorem real_of_pre [Cert.Pre_finite_inputs.Facts]
    (a0 : FVec Ideal S100000x1024 .f32) (a1 : IVec S2x1600000 32) (a2 : FVec Ideal S1024x64 .f32) (a3 : FVec Ideal S64 .f32) (a4 : FVec Ideal S64x32 .f32) (a5 : FVec Ideal S32 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) := by
  -- the predicate's result is a rank-0 array: read the hypothesis at its one index, and unfold the predicate's definition
  have h0 := congrFun h ValueIdx.ix0
  dsimp only [Cert.Pre_finite_inputs.fn, Cert.Pre_finite_inputs.fn_part1] at h0
  -- the result is  (((all0 ∧ all2) ∧ all3) ∧ all4) ∧ all5  on one-bit words, each "and" taken at the index;
  -- a one-bit "and" is 1 exactly when both operands are
  dsimp only [andi] at h0
  simp only [IntOp.andi_eq_one] at h0
  obtain ⟨⟨⟨⟨e0, e2⟩, e3⟩, e4⟩, e5⟩ := h0
  -- each  all(...) = 1  gives the comparison  |a| < +inf  = 1 at every index, and that makes the entry real
  exact ⟨fun i => real_of_lt_inf _ a0 i (Host.reduce_andi_all _ _ _ _ _ e0 i),
    fun i => real_of_lt_inf _ a2 i (Host.reduce_andi_all _ _ _ _ _ e2 i),
    fun i => real_of_lt_inf _ a3 i (Host.reduce_andi_all _ _ _ _ _ e3 i),
    fun i => real_of_lt_inf _ a4 i (Host.reduce_andi_all _ _ _ _ _ e4 i),
    fun i => real_of_lt_inf _ a5 i (Host.reduce_andi_all _ _ _ _ _ e5 i)⟩

end Cert.FiniteInputs

end
-- ==== Proof.LayerOneArray.lean ====
/-
  The first layer's kernel, as one array.

  The kernel walks a grid of 50 points. At point `t` its body holds three blocks: rows `2000 t … 2000 t + 1999` of the
  [100000,1024] left matrix `A`, the whole [1024,64] right matrix `W`, and entries `2000 t … 2000 t + 1999` of the
  [100000,1] column `D`. It multiplies the row block by `W` into a zero accumulator, scales row p of the product by
  the column's p-th entry (the column broadcast along the 64 lanes), and stores the [2000,64] result, which is
  written back to rows `2000 t … 2000 t + 1999` of the [100000,64] output.

  This module proves that after the 50 write-backs the output array is, entry by entry,

      out (r, q) = (∑ k < 1024, A (r, k) · W (k, q)) · D (r, 0)

  over the extended reals, where `A`, `W`, `D` are the arrays as the region finds them. Three steps:
  the body's value at an index of its block (a contraction's sum re-indexed by its one coordinate, a cast to the
  same shape, a column broadcast, a pointwise product); what a point writes back is the block of ONE whole-array
  function, because each input block is the input array read through the rows the output block occupies; and the 50
  blocks tile the 100000 rows (row r lies in the block of point `r / 2000`), so the array is that function.
  No algebraic law of the extended reals is used (the sum is read off as it stands), so nothing here needs the
  inputs to be finite.
-/
import proofs.«139203_j38070590112102_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.LayerOne

open Idealize.ShloMosaic Idealize.ShloMosaic.TcCoe Idealize.ShloMosaic.ValueIdx Cert.KernelIdeal Cert.KernelIdeal.Gen
open Idealize.ShloMosaic.Pipeline (Dat)

/-! ## The body's value at an index of its block -/

/-- A [2000,1] column broadcast along 64 lanes reads, at (p, q), the column's entry in row p. -/
theorem broadcast_column_apply (v : S2000x1.Idx → EReal) (h : S2000x1.Broadcasts S2000x64) (p : Fin 2000) (q : Fin 64) :
    broadcastTo S2000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- On the left operand's row axis the contraction's index map keeps the output's row. -/
theorem lhs_row (i : S2000x64.Idx) (c : dot_S2000x1024_S1024x64_S2000x64_1_0_0_1_n_n.contr.Idx) :
    (dot_S2000x1024_S1024x64_S2000x64_1_0_0_1_n_n.lhsIdx i c 0).val = (i 0).val := by
  unfold DotDims.lhsIdx
  rw [dif_neg (show ¬(0 : Fin S2000x1024.rank) ∈ dot_S2000x1024_S1024x64_S2000x64_1_0_0_1_n_n.lhsBatch by decide), dif_pos (show (0 : Fin S2000x1024.rank) ∈ dot_S2000x1024_S1024x64_S2000x64_1_0_0_1_n_n.lhsNonContracting by decide)]
  rfl
/-- On the left operand's column axis it is the contraction's coordinate. -/
theorem lhs_col (i : S2000x64.Idx) (c : dot_S2000x1024_S1024x64_S2000x64_1_0_0_1_n_n.contr.Idx) :
    (dot_S2000x1024_S1024x64_S2000x64_1_0_0_1_n_n.lhsIdx i c 1).val = (c ⟨0, by decide⟩).val :=
  dot_S2000x1024_S1024x64_S2000x64_1_0_0_1_n_n.lhsIdx_val_of_single rfl i c
/-- On the right operand's row axis it is the contraction's coordinate. -/
theorem rhs_row (i : S2000x64.Idx) (c : dot_S2000x1024_S1024x64_S2000x64_1_0_0_1_n_n.contr.Idx) :
    (dot_S2000x1024_S1024x64_S2000x64_1_0_0_1_n_n.rhsIdx i c 0).val = (c ⟨0, by decide⟩).val :=
  dot_S2000x1024_S1024x64_S2000x64_1_0_0_1_n_n.rhsIdx_val_of_single rfl i c
/-- On the right operand's column axis it keeps the output's column. -/
theorem rhs_col (i : S2000x64.Idx) (c : dot_S2000x1024_S1024x64_S2000x64_1_0_0_1_n_n.contr.Idx) :
    (dot_S2000x1024_S1024x64_S2000x64_1_0_0_1_n_n.rhsIdx i c 1).val = (i 1).val := by
  unfold DotDims.rhsIdx
  rw [dif_neg (show ¬(1 : Fin S1024x64.rank) ∈ dot_S2000x1024_S1024x64_S2000x64_1_0_0_1_n_n.rhsBatch by decide), dif_pos (show (1 : Fin S1024x64.rank) ∈ dot_S2000x1024_S1024x64_S2000x64_1_0_0_1_n_n.rhsNonContracting by decide)]
  rfl

/-- The kernel's matmul into the zero accumulator, at (p, q): row p of the left block against column q of the right. -/
theorem matmul_block_apply (x0 : Vec Ideal S2000x1024 .f32) (x1 : Vec Ideal S1024x64 .f32) (p : Fin 2000) (q : Fin 64) :
    matmul (F := Ideal) (φ₁ := .f32) (φ₂ := .f32) dot_S2000x1024_S1024x64_S2000x64_1_0_0_1_n_n (some .fp32) x0 x1 (constant (F := Ideal) S2000x64 .f32 0x00000000#32) (ix2 p q)
      = ∑ k : Fin 1024, x0 (ix2 p k) * x1 (ix2 k q) := by
  refine (Ideal.matmul_constant_zero_apply dot_S2000x1024_S1024x64_S2000x64_1_0_0_1_n_n (some .fp32) x0 x1 (ix2 p q)).trans ?_
  rw [← Equiv.sum_comp (contrEquiv1 dot_S2000x1024_S1024x64_S2000x64_1_0_0_1_n_n 1024 rfl rfl).symm]
  refine Finset.sum_congr rfl fun k _ => ?_
  have hk := contrEquiv1_symm_val dot_S2000x1024_S1024x64_S2000x64_1_0_0_1_n_n 1024 rfl rfl k
  have el : dot_S2000x1024_S1024x64_S2000x64_1_0_0_1_n_n.lhsIdx (ix2 p q) ((contrEquiv1 dot_S2000x1024_S1024x64_S2000x64_1_0_0_1_n_n 1024 rfl rfl).symm k) = ix2 p k := funext fun a => Fin.ext (by
    match a with
    | ⟨0, _⟩ => exact lhs_row _ _
    | ⟨1, _⟩ => exact (lhs_col _ _).trans hk)
  have er : dot_S2000x1024_S1024x64_S2000x64_1_0_0_1_n_n.rhsIdx (ix2 p q) ((contrEquiv1 dot_S2000x1024_S1024x64_S2000x64_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The body's stored value at (p, q) of its block, from the three loaded blocks: the matrix product's entry, times
    the column's entry in row p. The cast of the column to its own shape is the identity. -/
theorem payload_apply (x0 : Vec Ideal S2000x1024 .f32) (x1 : Vec Ideal S1024x64 .f32) (x2 : Vec Ideal S2000x1 .f32) (p : Fin 2000) (q : Fin 64) :
    k0_pay1 (F := Ideal) x0 x1 x2 (ix2 p q) = (∑ k : Fin 1024, x0 (ix2 p k) * x1 (ix2 k q)) * x2 (ix2 p (0 : Fin 1)) := by
  unfold k0_pay1
  refine (mulf_apply _ _ (ix2 p q)).trans ?_
  rw [shapeCast_self]
  exact congrArg₂ (· * ·) (matmul_block_apply x0 x1 p q) (broadcast_column_apply x2 _ p q)

/-! ## From blocks to the array

The grid has 50 points. Point `t` reads rows `2000 t … 2000 t + 1999` of the [100000,1024] left matrix and of the
[100000,1] column, the whole [1024,64] right matrix, and writes rows `2000 t … 2000 t + 1999` of the [100000,64]
result. An entry (r, q) of the result therefore depends on row r of the left matrix, column q of the right one and
entry r of the column only, and the block that holds it is the one of point `r / 2000`. -/

section Array

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- Entry (r, q) of the row-scaled product: row r of `A` against column q of `W`, times the r-th entry of the column `D`. -/
def scaledEntry (A : S100000x1024.Idx → EReal) (W : S1024x64.Idx → EReal) (D : S100000x1.Idx → EReal) (r : Fin 100000) (q : Fin 64) : EReal :=
  (∑ k : Fin 1024, A (ix2 r k) * W (ix2 k q)) * D (ix2 r (0 : Fin 1))

/-- The row-scaled product `diag(D) · (A · W)` as one function of the [100000,64] index. -/
def scaledProduct (A : S100000x1024.Idx → EReal) (W : S1024x64.Idx → EReal) (D : S100000x1.Idx → EReal) : S100000x64.Idx → EReal :=
  fun i => scaledEntry A W D (i 0) (i 1)

/-- The printed index maps over the 50 grid points: the left matrix's, the column's and the result's blocks move with
    the point along the rows; the right matrix's block stays at (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left matrix's block at point `t` is its rows `2000 t …`: entry `y` of the block is entry `i` of the matrix when
    `i`'s row is `2000 t` plus `y`'s and the columns agree. -/
theorem left_block_apply (c : Dev nD) (t : Fin cfg0.N) (y : S2000x1024.Idx) (i : S100000x1024.Idx)
    (h0 : (i 0).val = 2000 * t.val + (y 0).val) (h1 : (i 1).val = (y 1).val) :
    (iblk0 V c 0 t : Vec Ideal S2000x1024 .f32) y = (V c main_arg0 : S100000x1024.Idx → EReal) i := by
  obtain ⟨e0, e1, -⟩ := index_facts t
  show V c main_arg0 (((cfg0.win 0).blk t).view.emb y) = V c main_arg0 i
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 1024 + 1 * (y 1).val = (i 1).val; omega

/-- The right matrix's block is the whole matrix at every point. -/
theorem right_block_apply (c : Dev nD) (t : Fin cfg0.N) (y : S1024x64.Idx) :
    (iblk0 V c 1 t : Vec Ideal S1024x64 .f32) y = (V c main_arg2 : S1024x64.Idx → EReal) y := by
  obtain ⟨-, -, e0, e1, -⟩ := index_facts t
  show V c main_arg2 (((cfg0.win 1).blk t).view.emb y) = V c main_arg2 y
  refine congrArg (V c main_arg2) (funext fun a => Fin.ext ?_)
  match a with
  | ⟨0, _⟩ => show win0_1.index t (0 : Fin 2) * 1024 + 1 * (y 0).val = (y 0).val; omega
  | ⟨1, _⟩ => show win0_1.index t (1 : Fin 2) * 64 + 1 * (y 1).val = (y 1).val; omega

/-- The column's block at point `t` is its entries `2000 t …`. -/
theorem column_block_apply (c : Dev nD) (t : Fin cfg0.N) (y : S2000x1.Idx) (i : S100000x1.Idx)
    (h0 : (i 0).val = 2000 * t.val + (y 0).val) (h1 : (i 1).val = (y 1).val) :
    (iblk0 V c 2 t : Vec Ideal S2000x1 .f32) y = (V c main_v15 : S100000x1.Idx → EReal) i := by
  obtain ⟨-, -, -, -, e0, e1, -⟩ := index_facts t
  show V c main_v15 (((cfg0.win 2).blk t).view.emb y) = V c main_v15 i
  refine congrArg (V c main_v15) (funext fun a => Fin.ext ?_)
  match a with
  | ⟨0, _⟩ => show win0_2.index t (0 : Fin 2) * 2000 + 1 * (y 0).val = (i 0).val; omega
  | ⟨1, _⟩ => show win0_2.index t (1 : Fin 2) * 1 + 1 * (y 1).val = (i 1).val; omega

/-- Where entry (p, q) of the result's block at point `t` sits in the [100000,64] array: row `2000 t + p`, column q. -/
theorem result_block_emb (t : Fin cfg0.N) (p : Fin 2000) (q : Fin 64) (r : Fin 100000) (hr : r.val = 2000 * t.val + p.val) :
    ((cfg0.win 3).blk t).view.emb (ix2 p q) = (ix2 r q : S100000x64.Idx) := by
  obtain ⟨-, -, -, -, -, -, e0, e1⟩ := index_facts t
  refine funext fun a => Fin.ext ?_
  match a with
  | ⟨0, _⟩ => show win0_3.index t (0 : Fin 2) * 2000 + 1 * p.val = r.val; omega
  | ⟨1, _⟩ => show win0_3.index t (1 : Fin 2) * 64 + 1 * q.val = q.val; omega

/-- What the body leaves from three blocks `x0`, `x1`, `x2` that are rows `2000 t …` of `A`, all of `W`, and entries
    `2000 t …` of `D`: at (p, q), the row-scaled product's entry (2000 t + p, q). Stated over variables, so that the
    point's blocks are only ever passed in as arguments. -/
theorem block_entry (A : S100000x1024.Idx → EReal) (W : S1024x64.Idx → EReal) (D : S100000x1.Idx → EReal)
    (x0 : Vec Ideal S2000x1024 .f32) (x1 : Vec Ideal S1024x64 .f32) (x2 : Vec Ideal S2000x1 .f32) (s : Nat)
    (h0 : ∀ (y : S2000x1024.Idx) (i : S100000x1024.Idx), (i 0).val = 2000 * s + (y 0).val → (i 1).val = (y 1).val → x0 y = A i)
    (h1 : ∀ y : S1024x64.Idx, x1 y = W y)
    (h2 : ∀ (y : S2000x1.Idx) (i : S100000x1.Idx), (i 0).val = 2000 * s + (y 0).val → (i 1).val = (y 1).val → x2 y = D i)
    (p : Fin 2000) (q : Fin 64) (r : Fin 100000) (hr : r.val = 2000 * s + p.val) :
    k0_pay1 (F := Ideal) x0 x1 x2 (ix2 p q) = scaledEntry A W D r q := by
  refine (payload_apply x0 x1 x2 p q).trans ?_
  unfold scaledEntry
  refine congrArg₂ (· * ·) (Finset.sum_congr rfl fun k _ => congrArg₂ (· * ·) (h0 (ix2 p k) (ix2 r k) hr rfl) (h1 (ix2 k q))) (h2 (ix2 p (0 : Fin 1)) (ix2 r (0 : Fin 1)) hr rfl)

/-- WHAT POINT `t` WRITES BACK is block `t` of the row-scaled product of the arrays as the region finds them. -/
theorem flushed_eq (c : Dev nD) (t : Fin cfg0.N) :
    (dat0 (F := Ideal) V c).flushed 3 t
      = ((cfg0.win 3).blk t).view.read (Elt Ideal) (scaledProduct (V c main_arg0) (V c main_arg2) (V c main_v15)) := by
  show (cfg0.win 3).cut (grid0.coords t) ((dat0 V c).after 3 t) = _
  rw [after0_3]
  unfold out0_3
  rw [View.canon_unit_zero zero_offsets]
  simp only [View.ld_unit_zero (S := S2000x1024) zero_offsets, View.ld_unit_zero (S := S1024x64) zero_offsets, View.ld_unit_zero (S := S2000x1) zero_offsets]
  have hN : cfg0.N = 50 := N_0
  have ht : t.val < 50 := hN ▸ t.isLt
  funext j
  obtain ⟨p, q, rfl⟩ : ∃ (p : Fin 2000) (q : Fin 64), j = ix2 p q := ⟨j 0, j 1, eq_ix2 j⟩
  have hr : (⟨2000 * t.val + p.val, by have := p.isLt; omega⟩ : Fin 100000).val = 2000 * t.val + p.val := rfl
  show k0_pay1 (F := Ideal) (iblk0 V c 0 t) (iblk0 V c 1 t) (iblk0 V c 2 t) (ix2 p q)
    = scaledProduct (V c main_arg0) (V c main_arg2) (V c main_v15) (((cfg0.win 3).blk t).view.emb (ix2 p q))
  refine Eq.trans ?_ (congrArg (scaledProduct (V c main_arg0) (V c main_arg2) (V c main_v15)) (result_block_emb t p q _ hr).symm)
  exact block_entry (V c main_arg0) (V c main_arg2) (V c main_v15) (iblk0 V c 0 t) (iblk0 V c 1 t) (iblk0 V c 2 t) t.val
    (left_block_apply V c t) (right_block_apply V c t) (column_block_apply V c t) p q _ hr

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v16).slice (win0_3.rect t)).set ↔ _
  rw [View.set_slice_whole, Rect.mem_set_unit]
  exact Iff.rfl

/-- The 50 blocks of 2000 rows tile the 100000 rows: row r is in the block of point `r / 2000`. -/
theorem cover (i : S100000x64.Idx) : ∃ t : Fin cfg0.N, (cfg0.win 3).flush t = true ∧ i ∈ ((cfg0.win 3).blk t).view.set := by
  have hN : cfg0.N = 50 := N_0
  have hi0 : (i 0).val < 100000 := (i 0).isLt
  have hi1 : (i 1).val < 64 := (i 1).isLt
  refine ⟨⟨(i 0).val / 2000, by rw [hN]; omega⟩, flush0_3 _, ?_⟩
  rw [mem_blk]
  obtain ⟨-, -, -, -, -, -, e0, e1⟩ := index_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e1]; omega

/-- THE ARRAY after the region's write-backs is the row-scaled product of the arrays the region found. -/
theorem array_eq (c : Dev nD) :
    (dat0 (F := Ideal) V c).arrAt 3 cfg0.N = scaledProduct (V c main_arg0) (V c main_arg2) (V c main_v15) :=
  (dat0 (F := Ideal) V c).arrAt_eq_of_cover 3 (scaledProduct (V c main_arg0) (V c main_arg2) (V c main_v15))
    (fun t _ => flushed_eq V c t) cover

/-- Entry (r, q) of the first kernel's output array is the row-scaled product's entry (r, q) of the arrays the region
    found: row r of the [100000,1024] array against column q of the [1024,64] one, times the r-th entry of the
    [100000,1] column. -/
theorem array_apply_entry (c : Dev nD) (r : Fin 100000) (q : Fin 64) :
    (dat0 (F := Ideal) V c).arrAt 3 cfg0.N (ix2 r q) = scaledEntry (V c main_arg0) (V c main_arg2) (V c main_v15) r q := by
  rw [array_eq]
  rfl

/-- The same with the three arrays named: whatever `A`, `W`, `D` the region's entry contents are known to be, entry
    (r, q) of the output array is `(∑ k, A (r, k) · W (k, q)) · D (r, 0)`. -/
theorem array_apply (c : Dev nD) (A : S100000x1024.Idx → EReal) (W : S1024x64.Idx → EReal) (D : S100000x1.Idx → EReal)
    (hA : V c main_arg0 = A) (hW : V c main_arg2 = W) (hD : V c main_v15 = D) (r : Fin 100000) (q : Fin 64) :
    (dat0 (F := Ideal) V c).arrAt 3 cfg0.N (ix2 r q)
      = (∑ k : Fin 1024, A (ix2 r k) * W (ix2 k q)) * D (ix2 r (0 : Fin 1)) := by
  subst hA hW hD
  exact array_apply_entry V c r q

end Array

end Cert.KernelIdeal.LayerOne

end
-- ==== Proof.LayerTwoArray.lean ====
/-
  The second graph-convolution layer's output array, entry by entry, at the ideal (extended real) values.

  The second kernel works on 10 blocks of 10000 rows. At block `t` it reads rows `10000 t … 10000 t + 9999` of the
  aggregated features `H` ([100000, 64]) and of the degree-scaling column `d` ([100000, 1]), and the whole bias row
  `b` ([1, 64]) and the whole weight matrix `W` ([64, 32]); it computes

      pre = max (H ⊙ d + b, 0)        (d broadcast along the 64 lanes, b along the 10000 rows),
      out = (pre · W) ⊙ d             (a matmul into a zero accumulator; d broadcast along the 32 lanes),

  and stores `out` as rows `10000 t … 10000 t + 9999` of the result ([100000, 32]).

  So entry `(r, q)` of the result depends on row `r` of `H`, on the one entry `d r`, and on all of `b` and of column
  `q` of `W`, and on nothing else — in particular not on which block `r` falls in:

      out (r, q) = (∑ k < 64, max (H (r, k) * d r + b k) 0 * W (k, q)) * d r.

  This module proves exactly that, for the array the pipeline leaves behind (`array_apply`), in three steps:

  1. `payload_apply`: the body's arithmetic, read at one entry `(p, q)` of a block, over arbitrary loaded blocks;
  2. `flushed_eq`: what point `t` writes back is block `t` of ONE whole-array function (`layerTwo`) of the arrays the
     region finds — each input block is its array read at row `10000 t + p` (`rows_block`, `column_block`) or is the
     whole array (`bias_block`, `weight_block`);
  3. `array_eq`: the ten blocks tile the 100000 rows (row `r` lies in block `r / 10000`), so the array ends holding
     that function everywhere.

  Everything is stated at a parameter `V`, the buffer contents when the region is entered; no property of those
  contents is used. No finiteness is used either: only the definitions of the operations at the extended reals.
-/
import proofs.«139203_j38070590112102_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.LayerTwo

open Idealize.ShloMosaic Idealize.ShloMosaic.TcCoe Idealize.ShloMosaic.ValueIdx Cert.KernelIdeal Cert.KernelIdeal.Gen

/-! ## Step 1: the body's arithmetic at one entry of a block -/

/-- A column `[a, 1]` broadcast along `b` lanes reads, at `(p, c)`, the column's entry of row `p`: on the operand's
    unit axis the coordinate is `0`, on the other it is the result's. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The matmul's dimension numbers: `[10000, 64] · [64, 32] → [10000, 32]`, contracting the left operand's lanes
    against the right operand's rows. -/
abbrev dot := dot_S10000x64_S64x32_S10000x32_1_0_0_1_n_n

/-- The left operand is read on the result's row … -/
theorem lhs_row (i : S10000x32.Idx) (k : dot.contr.Idx) : (dot.lhsIdx i k 0).val = (i 0).val := by
  unfold DotDims.lhsIdx
  rw [dif_neg (show ¬(0 : Fin S10000x64.rank) ∈ dot.lhsBatch by decide),
    dif_pos (show (0 : Fin S10000x64.rank) ∈ dot.lhsNonContracting by decide)]
  rfl
/-- … at the contraction index's lane; -/
theorem lhs_lane (i : S10000x32.Idx) (k : dot.contr.Idx) : (dot.lhsIdx i k 1).val = (k ⟨0, by decide⟩).val :=
  dot.lhsIdx_val_of_single rfl i k
/-- the right operand on the contraction index's row … -/
theorem rhs_row (i : S10000x32.Idx) (k : dot.contr.Idx) : (dot.rhsIdx i k 0).val = (k ⟨0, by decide⟩).val :=
  dot.rhsIdx_val_of_single rfl i k
/-- … at the result's lane. -/
theorem rhs_lane (i : S10000x32.Idx) (k : dot.contr.Idx) : (dot.rhsIdx i k 1).val = (i 1).val := by
  unfold DotDims.rhsIdx
  rw [dif_neg (show ¬(1 : Fin S64x32.rank) ∈ dot.rhsBatch by decide),
    dif_pos (show (1 : Fin S64x32.rank) ∈ dot.rhsNonContracting by decide)]
  rfl

/-- The matmul into a zero accumulator, at entry `(p, q)`: the sum over the 64 contracted positions of row `p` of the
    left operand times column `q` of the right one. The zero accumulator contributes the extended real `0`; the
    one-axis contraction index is re-indexed by its coordinate `k < 64`. -/
theorem matmul_zero_apply (l : FVec Ideal S10000x64 .f32) (r : FVec Ideal S64x32 .f32) (p : Fin 10000) (q : Fin 32) :
    matmul (F := Ideal) dot (some .fp32) l r (constant (F := Ideal) S10000x32 .f32 0x00000000#32) (ix2 p q)
      = ∑ k : Fin 64, l (ix2 p k) * r (ix2 k q) := by
  simp only [matmul]
  rw [Ideal.matmul_constant_zero_apply, ← Equiv.sum_comp (contrEquiv1 dot 64 rfl rfl).symm]
  refine Finset.sum_congr rfl fun k _ => ?_
  have hk := contrEquiv1_symm_val dot 64 rfl rfl k
  have el : dot.lhsIdx (ix2 p q) ((contrEquiv1 dot 64 rfl rfl).symm k) = ix2 p k := funext fun a => Fin.ext (by
    match a with
    | ⟨0, _⟩ => exact lhs_row _ _
    | ⟨1, _⟩ => exact (lhs_lane _ _).trans hk)
  have er : dot.rhsIdx (ix2 p q) ((contrEquiv1 dot 64 rfl rfl).symm k) = ix2 k q := funext fun a => Fin.ext (by
    match a with
    | ⟨0, _⟩ => exact (rhs_row _ _).trans hk
    | ⟨1, _⟩ => exact rhs_lane _ _)
  rw [el, er]

/-- THE BODY AT ONE ENTRY. For any loaded blocks `x0` (features, [10000, 64]), `x1` (scaling column, [10000, 1]),
    `x2` (bias row, [1, 64]), `x3` (weights, [64, 32]), entry `(p, q)` of what the body stores is

      (∑ k, max (x0 (p, k) * x1 (p, 0) + x2 (0, k)) 0 * x3 (k, q)) * x1 (p, 0).

    The body loads the column twice (once for each of its two uses); both loads see the same block, so the payload is
    taken at `x1` twice. The casts are to the same shape, hence identities; each broadcast reads its operand on the
    non-unit axis; the maximum against the broadcast zero word is `max · 0` at the extended reals. -/
theorem payload_apply (x0 : Vec Ideal S10000x64 .f32) (x1 : Vec Ideal S10000x1 .f32) (x2 : Vec Ideal S1x64 .f32)
    (x3 : Vec Ideal S64x32 .f32) (p : Fin 10000) (q : Fin 32) :
    k1_pay1 (F := Ideal) x0 x1 x2 x3 x1 (ix2 p q)
      = (∑ k : Fin 64, max (x0 (ix2 p k) * x1 (ix2 p 0) + x2 (ix2 0 k)) 0 * x3 (ix2 k q)) * x1 (ix2 p 0) := by
  unfold k1_pay1
  rw [shapeCast_self x0, shapeCast_self x1, shapeCast_self x2]
  refine (mulf_apply _ _ _).trans ?_
  refine (congrArg₂ (· * ·) (matmul_zero_apply _ x3 p q)
    (broadcastTo_a1_ab_apply x1 broadcasts_S10000x1_S10000x32 p q)).trans ?_
  refine congrArg (· * x1 (ix2 p 0)) (Finset.sum_congr rfl fun k _ => congrArg (· * x3 (ix2 k q)) ?_)
  rw [maximumf_apply, addf_apply, mulf_apply, broadcast_apply,
    broadcastTo_a1_ab_apply x1 broadcasts_S10000x1_S10000x64 p k,
    broadcastTo_1b_ab_apply x2 broadcasts_S1x64_S10000x64 p k, Ideal.ofBits_def, Ideal.ofBits_zero_f32]

/-! ## Step 2: what a grid point writes back is a block of one whole-array function -/

/-- Entry `(r, q)` of the second layer, from the four whole arrays: features `a0`, scaling column `a1`, bias row
    `a2`, weights `a3`. -/
def layerTwoAt (a0 : S100000x64.Idx → EReal) (a1 : S100000x1.Idx → EReal) (a2 : S1x64.Idx → EReal)
    (a3 : S64x32.Idx → EReal) (r : Fin 100000) (q : Fin 32) : EReal :=
  (∑ k : Fin 64, max (a0 (ix2 r k) * a1 (ix2 r 0) + a2 (ix2 0 k)) 0 * a3 (ix2 k q)) * a1 (ix2 r 0)

/-- Its defining formula, for rewriting. -/
theorem layerTwoAt_eq (a0 : S100000x64.Idx → EReal) (a1 : S100000x1.Idx → EReal) (a2 : S1x64.Idx → EReal)
    (a3 : S64x32.Idx → EReal) (r : Fin 100000) (q : Fin 32) :
    layerTwoAt a0 a1 a2 a3 r q
      = (∑ k : Fin 64, max (a0 (ix2 r k) * a1 (ix2 r 0) + a2 (ix2 0 k)) 0 * a3 (ix2 k q)) * a1 (ix2 r 0) := rfl

/-- The second layer's whole result array, as a function of the four whole arrays. -/
def layerTwo (a0 : S100000x64.Idx → EReal) (a1 : S100000x1.Idx → EReal) (a2 : S1x64.Idx → EReal)
    (a3 : S64x32.Idx → EReal) : S100000x32.Idx → EReal :=
  fun i => layerTwoAt a0 a1 a2 a3 (i 0) (i 1)

/-- If the loaded blocks are the arrays read at row `r` (features and column) and the whole bias and weights, then the
    body's entry `(p, q)` is the layer's entry `(r, q)`. Stated over arbitrary blocks and arrays, so that it can be
    used at a grid point's blocks without unfolding them. -/
theorem payload_of_blocks (x0 : Vec Ideal S10000x64 .f32) (x1 : Vec Ideal S10000x1 .f32) (x2 : Vec Ideal S1x64 .f32)
    (x3 : Vec Ideal S64x32 .f32) (a0 : S100000x64.Idx → EReal) (a1 : S100000x1.Idx → EReal) (a2 : S1x64.Idx → EReal)
    (a3 : S64x32.Idx → EReal) (p : Fin 10000) (q : Fin 32) (r : Fin 100000)
    (h0 : ∀ k : Fin 64, x0 (ix2 p k) = a0 (ix2 r k)) (h1 : x1 (ix2 p 0) = a1 (ix2 r 0))
    (h2 : ∀ k : Fin 64, x2 (ix2 0 k) = a2 (ix2 0 k)) (h3 : ∀ k : Fin 64, x3 (ix2 k q) = a3 (ix2 k q)) :
    k1_pay1 (F := Ideal) x0 x1 x2 x3 x1 (ix2 p q) = layerTwoAt a0 a1 a2 a3 r q := by
  rw [payload_apply]
  unfold layerTwoAt
  simp only [h0, h1, h2, h3]

/-- The store and the loads are at offset `(0, 0)` of their buffers. -/
theorem hz : (![0, 0] : Fin 2 → Nat) = fun _ => 0 := funext fun a => by fin_cases a <;> rfl

/-- The block index of each window at grid point `t`, decided over the ten points: the features, the column and the
    result move with `t` along the rows; the bias and the weights stay at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
-- the buffer contents when the region is entered: a parameter, about which nothing is assumed
variable (V : (c : Dev nD) → (b : Ref sig .tc) → Buf (Elt Ideal) ((c : Thread nD τ).loc b))

/-- Row `p` of the features' block at point `t` is row `10000 t + p` of the features: an element of a block sits at
    block index × block size + its coordinate inside the block, on each axis. -/
theorem rows_block (c : Dev nD) (t : Fin cfg1.N) (p : Fin 10000) (k : Fin 64) (r : Fin 100000)
    (hr : r.val = t.val * 10000 + p.val) :
    (iblk1 (F := Ideal) V c 0 t : Vec Ideal S10000x64 .f32) (ix2 p k)
      = (V c main_v26 : S100000x64.Idx → EReal) (ix2 r k) := by
  obtain ⟨e0, e1, -⟩ := index_facts t
  unfold iblk1
  rw [View.read_apply]
  show V c main_v26 _ = V c main_v26 _
  refine congrArg (V c main_v26) (funext fun a => Fin.ext ?_)
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- Likewise the scaling column's block: its row `p` is entry `10000 t + p` of the column. -/
theorem column_block (c : Dev nD) (t : Fin cfg1.N) (p : Fin 10000) (r : Fin 100000)
    (hr : r.val = t.val * 10000 + p.val) :
    (iblk1 (F := Ideal) V c 1 t : Vec Ideal S10000x1 .f32) (ix2 p 0)
      = (V c main_v15 : S100000x1.Idx → EReal) (ix2 r 0) := by
  obtain ⟨-, -, e0, e1, -⟩ := index_facts t
  unfold iblk1
  rw [View.read_apply]
  show V c main_v15 _ = V c main_v15 _
  refine congrArg (V c main_v15) (funext fun a => Fin.ext ?_)
  match a with
  | ⟨0, _⟩ => show win1_1.index t (0 : Fin 2) * 10000 + 1 * p.val = r.val; rw [e0, hr]; omega
  | ⟨1, _⟩ => show win1_1.index t (1 : Fin 2) * 1 + 1 * 0 = 0; rw [e1]

/-- The bias row's block is the whole bias row, at every point. -/
theorem bias_block (c : Dev nD) (t : Fin cfg1.N) (k : Fin 64) :
    (iblk1 (F := Ideal) V c 2 t : Vec Ideal S1x64 .f32) (ix2 0 k) = (V c main_v27 : S1x64.Idx → EReal) (ix2 0 k) := by
  obtain ⟨-, -, -, -, e0, e1, -⟩ := index_facts t
  unfold iblk1
  rw [View.read_apply]
  show V c main_v27 _ = V c main_v27 _
  refine congrArg (V c main_v27) (funext fun a => Fin.ext ?_)
  match a with
  | ⟨0, _⟩ => show win1_2.index t (0 : Fin 2) * 1 + 1 * 0 = 0; rw [e0]
  | ⟨1, _⟩ => show win1_2.index t (1 : Fin 2) * 64 + 1 * k.val = k.val; rw [e1]; omega

/-- The weights' block is the whole weight matrix, at every point. -/
theorem weight_block (c : Dev nD) (t : Fin cfg1.N) (k : Fin 64) (q : Fin 32) :
    (iblk1 (F := Ideal) V c 3 t : Vec Ideal S64x32 .f32) (ix2 k q) = (V c main_arg4 : S64x32.Idx → EReal) (ix2 k q) := by
  obtain ⟨-, -, -, -, -, -, e0, e1, -⟩ := index_facts t
  unfold iblk1
  rw [View.read_apply]
  show V c main_arg4 _ = V c main_arg4 _
  refine congrArg (V c main_arg4) (funext fun a => Fin.ext ?_)
  match a with
  | ⟨0, _⟩ => show win1_3.index t (0 : Fin 2) * 64 + 1 * k.val = k.val; rw [e0]; omega
  | ⟨1, _⟩ => show win1_3.index t (1 : Fin 2) * 32 + 1 * q.val = q.val; rw [e1]; omega

/-- WHAT POINT `t` WRITES BACK is block `t` of `layerTwo` of the arrays as the region finds them: the body's one store
    fills the staging buffer with its payload of the four loaded blocks; entry `(p, q)` of it is, by the block reads
    above, the layer's entry `(10000 t + p, q)`, which is where entry `(p, q)` of the result's block `t` sits. -/
theorem flushed_eq (c : Dev nD) (t : Fin cfg1.N) :
    (dat1 (F := Ideal) V c).flushed 4 t
      = ((cfg1.win 4).blk t).view.read (Elt Ideal)
          (layerTwo (V c main_v26) (V c main_v15) (V c main_v27) (V c main_arg4)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz,
    View.ld_unit_zero (S := S1x64) hz, View.ld_unit_zero (S := S64x32) hz]
  funext j
  obtain ⟨p, q, rfl⟩ : ∃ (p : Fin 10000) (q : Fin 32), j = ix2 p q := ⟨j 0, j 1, eq_ix2 j⟩
  have ht : t.val < 10 := lt_of_lt_of_eq t.isLt N_1
  have hp : p.val < 10000 := p.isLt
  obtain ⟨-, -, -, -, -, -, -, -, e0, e1⟩ := index_facts t
  have he : ((cfg1.win 4).blk t).view.emb (ix2 p q) = ix2 (⟨t.val * 10000 + p.val, by omega⟩ : Fin 100000) q :=
    funext fun a => Fin.ext (by
      match a with
      | ⟨0, _⟩ => show win1_4.index t (0 : Fin 2) * 10000 + 1 * p.val = t.val * 10000 + p.val; rw [e0]; omega
      | ⟨1, _⟩ => show win1_4.index t (1 : Fin 2) * 32 + 1 * q.val = q.val; rw [e1]; omega)
  rw [View.read_apply, he]
  exact payload_of_blocks (iblk1 V c 0 t) (iblk1 V c 1 t) (iblk1 V c 2 t) (iblk1 V c 3 t)
    (V c main_v26) (V c main_v15) (V c main_v27) (V c main_arg4) p q ⟨t.val * 10000 + p.val, by omega⟩
    (fun k => rows_block V c t p k _ rfl) (column_block V c t p _ rfl)
    (fun k => bias_block V c t k) (fun k => weight_block V c t k q)

/-! ## Step 3: the blocks tile the array -/

/-- An index of the result is in point `t`'s block iff each coordinate is in the block's range on its axis. -/
theorem mem_blk (t : Fin cfg1.N) (i : S100000x32.Idx) :
    i ∈ ((cfg1.win 4).blk t).view.set ↔ ∀ a : Fin 2, win1_4.index t a * S10000x32.size a ≤ (i a).val
      ∧ (i a).val < win1_4.index t a * S10000x32.size a + S10000x32.size a := by
  show i ∈ ((View.whole main_v28).slice (win1_4.rect t)).set ↔ _
  rw [View.set_slice_whole, Rect.mem_set_unit]
  exact Iff.rfl

/-- Every index of the result is in a block that is written back: row `r` lies in block `r / 10000`, which is one
    of the ten points since `r < 100000`, and every point writes its block back. -/
theorem cover (i : S100000x32.Idx) :
    ∃ t : Fin cfg1.N, (cfg1.win 4).flush t = true ∧ i ∈ ((cfg1.win 4).blk t).view.set := by
  have hi0 : (i 0).val < 100000 := idx2_lt0 i
  have hi1 : (i 1).val < 32 := idx2_lt1 i
  have hN : grid1.N = 10 := N_1
  let t : Fin cfg1.N := ⟨(i 0).val / 10000, by show (i 0).val / 10000 < grid1.N; rw [hN]; omega⟩
  have htv : t.val = (i 0).val / 10000 := rfl
  obtain ⟨-, -, -, -, -, -, -, -, e0, e1⟩ := index_facts t
  refine ⟨t, flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    rw [e0, htv]; omega
  | ⟨1, _⟩ =>
    show win1_4.index t (1 : Fin 2) * 32 ≤ (i 1).val ∧ (i 1).val < win1_4.index t (1 : Fin 2) * 32 + 32
    rw [e1]; omega

/-- THE RESULT ARRAY after the region: the second layer of the arrays the region found. Each written-back block is a
    block of `layerTwo …` (`flushed_eq`) and the blocks cover the array (`cover`). -/
theorem array_eq (c : Dev nD) :
    (dat1 (F := Ideal) V c).arrAt 4 cfg1.N = layerTwo (V c main_v26) (V c main_v15) (V c main_v27) (V c main_arg4) :=
  (dat1 (F := Ideal) V c).arrAt_eq_of_cover 4 _ (fun t _ => flushed_eq V c t) cover

/-- THE RESULT ARRAY AT AN ENTRY: row `r`, lane `q` is `layerTwoAt` of the arrays the region found, that is
    (`layerTwoAt_eq`)

      (∑ k, max (H (r, k) * d r + b k) 0 * W (k, q)) * d r

    with `H` the features, `d` the scaling column, `b` the bias row, `W` the weights. -/
theorem array_apply (c : Dev nD) (r : Fin 100000) (q : Fin 32) :
    (dat1 (F := Ideal) V c).arrAt 4 cfg1.N (ix2 r q)
      = layerTwoAt (V c main_v26) (V c main_v15) (V c main_v27) (V c main_arg4) r q := by
  rw [array_eq]
  rfl

end

end Cert.KernelIdeal.LayerTwo

end
-- ==== Proof.KernelStages.lean ====
/-
  What the kernel program's buffers hold at each boundary of its run, as functions of the six argument arrays.

  The kernel program and the reference compute the same host-side quantities from the edge list `arg1`: the source and
  destination lists with the self loops appended (`src`, `dst`: 1,700,000 entries), the degree of a node (how many edges
  arrive at it), and `dinv`, the inverse square root of the degree where it is positive and 0 elsewhere. Those values are
  named here by the reference's own stage functions (`val_main_v3`, `val_main_v6`, `val_main_v14`, …): the two programs'
  host operations are the same text, so each identification is by unfolding.

  Between them sit the two kernels. With `x = arg0`, `W1 = arg2`, `b1 = arg3`, `W2 = arg4`:
    hs1[r, q]  = (∑ₖ x[r, k] · W1[k, q]) · dinv[r]                                   (the first kernel's array)
    agg1       = the scatter-add, at the destinations, of the rows of hs1 gathered at the sources
    hs2[r, q]  = (∑ₖ max(agg1[r, k] · dinv[r] + b1[k], 0) · W2[k, q]) · dinv[r]       (the second kernel's array)
    result     = (the scatter-add at the destinations of the rows of hs2 gathered at the sources) · dinv[row] + b2[column].
-/
import proofs.«139203_j38070590112102_2_alg».proof.Proof.KernelRun
import proofs.«139203_j38070590112102_2_alg».proof.Proof.RefRead
import proofs.«139203_j38070590112102_2_alg».proof.Proof.LayerOneArray
import proofs.«139203_j38070590112102_2_alg».proof.Proof.LayerTwoArray
import Idealize.ShloMosaic.Lib.StableHlo.Run
import Idealize.ShloMosaic.Lib.ValueLayout
import Idealize.ShloMosaic.PureOps.Ideal.Laws

set_option maxRecDepth 16384

noncomputable section

namespace Cert.KernelIdeal.Stages

open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

/-- A vector recast as a column, `[a] → [a, 1]`, read at an entry: entry `(i, 0)` of the column is entry `i` of the vector. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

variable (m : (ℓ : Loc nD τ sig) → Buf (Elt Ideal) ℓ) (ρ : Dev nD → PrngReg) (c : Dev nD)

/-! ## The argument arrays as launched -/

abbrev x : S100000x1024.Idx → EReal := m ((c.tc : Thread nD τ).loc main_arg0)
abbrev edges : S2x1600000.Idx → BitVec 32 := m ((c.tc : Thread nD τ).loc main_arg1)
abbrev w1 : S1024x64.Idx → EReal := m ((c.tc : Thread nD τ).loc main_arg2)
abbrev b1 : S64.Idx → EReal := m ((c.tc : Thread nD τ).loc main_arg3)
abbrev w2 : S64x32.Idx → EReal := m ((c.tc : Thread nD τ).loc main_arg4)
abbrev b2 : S32.Idx → EReal := m ((c.tc : Thread nD τ).loc main_arg5)

/-- `dinv`: the inverse square root of a node's degree (0 where the degree is not positive). -/
abbrev dinv : S100000.Idx → EReal := val_main_v14 (F := Ideal) (edges m c)
/-- `dinv` as the column the kernels read. -/
abbrev dinvCol : S100000x1.Idx → EReal := shapeCast S100000x1 (dinv m c) shapeCasts_S100000_S100000x1

/-! ## At the first kernel's entry (after the three opening stretches) -/

theorem entry0_x : V3 m ρ c main_arg0 = x m c := by
  show StableHlo.after hostOps0_2 (StableHlo.after hostOps0_1 (StableHlo.after hostOps0 (W0 m ρ c))) (Proc.devRef .tc main_arg0) = _
  after_results
theorem entry0_w1 : V3 m ρ c main_arg2 = w1 m c := by
  show StableHlo.after hostOps0_2 (StableHlo.after hostOps0_1 (StableHlo.after hostOps0 (W0 m ρ c))) (Proc.devRef .tc main_arg2) = _
  after_results
theorem entry0_b1 : W3 m ρ c (Proc.devRef .tc main_arg3) = b1 m c := by
  show StableHlo.after hostOps0_2 (StableHlo.after hostOps0_1 (StableHlo.after hostOps0 (W0 m ρ c))) (Proc.devRef .tc main_arg3) = _
  after_results
theorem entry0_w2 : W3 m ρ c (Proc.devRef .tc main_arg4) = w2 m c := by
  show StableHlo.after hostOps0_2 (StableHlo.after hostOps0_1 (StableHlo.after hostOps0 (W0 m ρ c))) (Proc.devRef .tc main_arg4) = _
  after_results
theorem entry0_b2 : W3 m ρ c (Proc.devRef .tc main_arg5) = b2 m c := by
  show StableHlo.after hostOps0_2 (StableHlo.after hostOps0_1 (StableHlo.after hostOps0 (W0 m ρ c))) (Proc.devRef .tc main_arg5) = _
  after_results
/-- The source list with the self loops. -/
theorem entry0_src : W3 m ρ c (Proc.devRef .tc main_v3) = val_main_v3 (F := Ideal) (edges m c) := by
  show StableHlo.after hostOps0_2 (StableHlo.after hostOps0_1 (StableHlo.after hostOps0 (W0 m ρ c))) (Proc.devRef .tc main_v3) = _
  after_results; rfl
/-- The destination list with the self loops. -/
theorem entry0_dst : W3 m ρ c (Proc.devRef .tc main_v6) = val_main_v6 (F := Ideal) (edges m c) := by
  show StableHlo.after hostOps0_2 (StableHlo.after hostOps0_1 (StableHlo.after hostOps0 (W0 m ρ c))) (Proc.devRef .tc main_v6) = _
  after_results; rfl
/-- The degree, the test "degree > 0", the inverse square root, and the zero the test falls back to, after the first stretch. -/
theorem first_deg_pos : W1 m ρ c (Proc.devRef .tc main_v12) = val_main_v12 (F := Ideal) (edges m c) := by
  show StableHlo.after hostOps0 (W0 m ρ c) (Proc.devRef .tc main_v12) = _
  after_results; rfl
theorem first_rsqrt : W1 m ρ c (Proc.devRef .tc main_v13) = val_main_v13 (F := Ideal) (edges m c) := by
  show StableHlo.after hostOps0 (W0 m ρ c) (Proc.devRef .tc main_v13) = _
  after_results; rfl
theorem first_zero : W1 m ρ c (Proc.devRef .tc main_cst_2) = val_main_cst_2 (F := Ideal) := by
  show StableHlo.after hostOps0 (W0 m ρ c) (Proc.devRef .tc main_cst_2) = _
  after_results; rfl

/-- The second stretch (the outlined `where`) selects, from any earlier contents `V`: the inverse square root where the
    test holds, the broadcast zero elsewhere. -/
theorem where_of (V : Valuation τ sig (Elt Ideal)) :
    StableHlo.after hostOps0_1 V (Proc.devRef .tc main_v14)
      = select (V (Proc.devRef .tc main_v12) : S100000.Idx → BitVec 1) (V (Proc.devRef .tc main_v13) : S100000.Idx → EReal)
          (broadcastInDim S100000 ![] bcast_S_S100000 (id (V (Proc.devRef .tc main_cst_2) : S_.Idx → EReal))) := by
  after_results; rfl

/-- `dinv`, after the second stretch. -/
theorem second_dinv : W2 m ρ c (Proc.devRef .tc main_v14) = dinv m c := by
  refine (where_of (W1 m ρ c)).trans ?_
  rw [first_deg_pos m ρ c, first_rsqrt m ρ c, first_zero m ρ c]
  rfl

/-- The third stretch recasts a vector as a column, from any earlier contents `V`. -/
theorem column_of (V : Valuation τ sig (Elt Ideal)) :
    StableHlo.after hostOps0_2 V (Proc.devRef .tc main_v15)
      = shapeCast S100000x1 (V (Proc.devRef .tc main_v14) : S100000.Idx → EReal) shapeCasts_S100000_S100000x1 := by
  after_results; rfl

/-- The column of inverse square-root degrees. -/
theorem entry0_dinv : V3 m ρ c main_v15 = dinvCol m c := by
  refine (column_of (W2 m ρ c)).trans ?_
  rw [second_dinv m ρ c]

/-! ## The first kernel's array: `hs1[r, q] = (∑ₖ x[r, k] · W1[k, q]) · dinv[r]` -/

abbrev hs1 : S100000x64.Idx → EReal := W4 m ρ c (Proc.devRef .tc main_v16)

theorem hs1_apply (r : Fin 100000) (q : Fin 64) :
    hs1 m ρ c (ix2 r q) = (∑ k : Fin 1024, x m c (ix2 r k) * w1 m c (ix2 k q)) * dinv m c (ix1 r) := by
  refine (congrFun (W4_arr m ρ c 3) (ix2 r q)).trans ?_
  refine (LayerOne.array_apply (V3 m ρ) c (x m c) (w1 m c) (dinvCol m c) (entry0_x m ρ c) (entry0_w1 m ρ c)
    (entry0_dinv m ρ c) r q).trans ?_
  exact congrArg (fun d => (∑ k : Fin 1024, x m c (ix2 r k) * w1 m c (ix2 k q)) * d)
    (shapeCast_column_apply (dinv m c) shapeCasts_S100000_S100000x1 r 0)

/-! ## At the first kernel's exit: everything but its output array is as at its entry -/

theorem exit0_src : W4 m ρ c (Proc.devRef .tc main_v3) = val_main_v3 (F := Ideal) (edges m c) :=
  (W4_of_ne m ρ c main_v3 (by decide)).trans (entry0_src m ρ c)
theorem exit0_dst : W4 m ρ c (Proc.devRef .tc main_v6) = val_main_v6 (F := Ideal) (edges m c) :=
  (W4_of_ne m ρ c main_v6 (by decide)).trans (entry0_dst m ρ c)
theorem exit0_b1 : W4 m ρ c (Proc.devRef .tc main_arg3) = b1 m c :=
  (W4_of_ne m ρ c main_arg3 (by decide)).trans (entry0_b1 m ρ c)
theorem exit0_w2 : W4 m ρ c (Proc.devRef .tc main_arg4) = w2 m c :=
  (W4_of_ne m ρ c main_arg4 (by decide)).trans (entry0_w2 m ρ c)
theorem exit0_b2 : W4 m ρ c (Proc.devRef .tc main_arg5) = b2 m c :=
  (W4_of_ne m ρ c main_arg5 (by decide)).trans (entry0_b2 m ρ c)
/-- The column is an input of the first kernel: it is left as it was. -/
theorem exit0_dinv : W4 m ρ c (Proc.devRef .tc main_v15) = dinvCol m c :=
  (W4_arr m ρ c 2).trans (((dat0 (V3 m ρ) c).arrAt_in 2 rfl _).trans ((A_eq0 (V3 m ρ) c 2).trans (entry0_dinv m ρ c)))

/-! ## The middle stretch: gather the rows of `hs1` at the sources, add them up at the destinations -/

/-- `agg1`: the scatter-add, at the edge destinations, of the rows of `hs1` gathered at the (wrapped) edge sources. -/
abbrev agg1 : FVec Ideal S100000x64 .f32 :=
  Host.scatterAdd (F := Ideal) scatter_S100000x64_S1700000x1_S1700000x64_1_0_0_1 (val_main_v41 (F := Ideal)) (val_main_v42 (F := Ideal) (edges m c))
    (Host.gather gather_S100000x64_S1700000x1_S1700000x64_1_0_n_n_0_1_164 (hs1 m ρ c) (val_main_v36 (F := Ideal) (edges m c)))

theorem entry1_agg : V5 m ρ c main_v26 = agg1 m ρ c := by
  show StableHlo.after hostOps1 (W4 m ρ c) (Proc.devRef .tc main_v26) = _
  after_results
  rw [exit0_src m ρ c, exit0_dst m ρ c]
  rfl
theorem entry1_dinv : V5 m ρ c main_v15 = dinvCol m c := by
  show StableHlo.after hostOps1 (W4 m ρ c) (Proc.devRef .tc main_v15) = _
  after_results
  exact exit0_dinv m ρ c
/-- The first bias recast as a row. -/
theorem entry1_b1 : V5 m ρ c main_v27 = shapeCast S1x64 (b1 m c) shapeCasts_S64_S1x64 := by
  show StableHlo.after hostOps1 (W4 m ρ c) (Proc.devRef .tc main_v27) = _
  after_results
  rw [exit0_b1 m ρ c]
  rfl
theorem entry1_w2 : V5 m ρ c main_arg4 = w2 m c := by
  show StableHlo.after hostOps1 (W4 m ρ c) (Proc.devRef .tc main_arg4) = _
  after_results
  exact exit0_w2 m ρ c
theorem entry1_src : W5 m ρ c (Proc.devRef .tc main_v3) = val_main_v3 (F := Ideal) (edges m c) := by
  show StableHlo.after hostOps1 (W4 m ρ c) (Proc.devRef .tc main_v3) = _
  after_results
  exact exit0_src m ρ c
theorem entry1_dst : W5 m ρ c (Proc.devRef .tc main_v6) = val_main_v6 (F := Ideal) (edges m c) := by
  show StableHlo.after hostOps1 (W4 m ρ c) (Proc.devRef .tc main_v6) = _
  after_results
  exact exit0_dst m ρ c
theorem entry1_b2 : W5 m ρ c (Proc.devRef .tc main_arg5) = b2 m c := by
  show StableHlo.after hostOps1 (W4 m ρ c) (Proc.devRef .tc main_arg5) = _
  after_results
  exact exit0_b2 m ρ c

/-! ## The second kernel's array: `hs2[r, q] = (∑ₖ max(agg1[r, k] · dinv[r] + b1[k], 0) · W2[k, q]) · dinv[r]` -/

abbrev hs2 : S100000x32.Idx → EReal := W6 m ρ c (Proc.devRef .tc main_v28)

theorem hs2_apply (r : Fin 100000) (q : Fin 32) :
    hs2 m ρ c (ix2 r q)
      = (∑ k : Fin 64, max (agg1 m ρ c (ix2 r k) * dinv m c (ix1 r) + b1 m c (ix1 k)) 0 * w2 m c (ix2 k q)) * dinv m c (ix1 r) := by
  refine (congrFun (W6_arr m ρ c 4) (ix2 r q)).trans ?_
  refine (LayerTwo.array_apply (V5 m ρ) c r q).trans ?_
  rw [entry1_agg m ρ c, entry1_dinv m ρ c, entry1_b1 m ρ c, entry1_w2 m ρ c, LayerTwo.layerTwoAt_eq]
  simp only [shapeCast_column_apply (dinv m c) shapeCasts_S100000_S100000x1 r 0, shapeCast_a_1a_apply (b1 m c) shapeCasts_S64_S1x64 0]

/-! ## At the second kernel's exit, and the last stretch -/

theorem exit1_src : W6 m ρ c (Proc.devRef .tc main_v3) = val_main_v3 (F := Ideal) (edges m c) :=
  (W6_of_ne m ρ c main_v3 (by decide)).trans (entry1_src m ρ c)
theorem exit1_dst : W6 m ρ c (Proc.devRef .tc main_v6) = val_main_v6 (F := Ideal) (edges m c) :=
  (W6_of_ne m ρ c main_v6 (by decide)).trans (entry1_dst m ρ c)
theorem exit1_b2 : W6 m ρ c (Proc.devRef .tc main_arg5) = b2 m c :=
  (W6_of_ne m ρ c main_arg5 (by decide)).trans (entry1_b2 m ρ c)
/-- The column is an input of the second kernel too. -/
theorem exit1_dinv : W6 m ρ c (Proc.devRef .tc main_v15) = dinvCol m c :=
  (W6_arr m ρ c 1).trans (((dat1 (V5 m ρ) c).arrAt_in 1 rfl _).trans ((A_eq1 (V5 m ρ) c 1).trans (entry1_dinv m ρ c)))

/-- `agg2`: the scatter-add, at the edge destinations, of the rows of `hs2` gathered at the (wrapped) edge sources. -/
abbrev agg2 : FVec Ideal S100000x32 .f32 :=
  Host.scatterAdd (F := Ideal) scatter_S100000x32_S1700000x1_S1700000x32_1_0_0_1 (val_main_v82 (F := Ideal)) (val_main_v83 (F := Ideal) (edges m c))
    (Host.gather gather_S100000x32_S1700000x1_S1700000x32_1_0_n_n_0_1_132 (hs2 m ρ c) (val_main_v77 (F := Ideal) (edges m c)))

set_option maxHeartbeats 8000000 in
/-- The last stretch, from any earlier contents `V`: gather the rows of the second kernel's array at the wrapped
    sources, add them up at the destinations, scale each row by the column, add the second bias along the columns. -/
theorem last_of (V : Valuation τ sig (Elt Ideal)) :
    StableHlo.after hostOps2 V (Proc.devRef .tc main_v43)
      = addf (F := Ideal)
          (mulf (F := Ideal)
            (Host.scatterAdd (F := Ideal) scatter_S100000x32_S1700000x1_S1700000x32_1_0_0_1
              (broadcastInDim S100000x32 ![] bcast_S_S100000x32 (constant (F := Ideal) S_ .f32 0x00000000#32))
              (broadcastInDim S1700000x1 ![0] bcast_S1700000_S1700000x1_0 (V (Proc.devRef .tc main_v6) : S1700000.Idx → BitVec 32))
              (Host.gather gather_S100000x32_S1700000x1_S1700000x32_1_0_n_n_0_1_132 (V (Proc.devRef .tc main_v28) : S100000x32.Idx → EReal)
                (broadcastInDim S1700000x1 ![0] bcast_S1700000_S1700000x1_0
                  (select
                    (cmpi .slt (V (Proc.devRef .tc main_v3) : S1700000.Idx → BitVec 32)
                      (broadcastInDim S1700000 ![] bcast_S_S1700000 (constantI S_ 32 0#32)))
                    (addi (V (Proc.devRef .tc main_v3) : S1700000.Idx → BitVec 32)
                      (broadcastInDim S1700000 ![] bcast_S_S1700000 (constantI S_ 32 100000#32)))
                    (V (Proc.devRef .tc main_v3) : S1700000.Idx → BitVec 32)))))
            (broadcastInDim S100000x32 ![0, 1] bcast_S100000x1_S100000x32_0_1 (V (Proc.devRef .tc main_v15) : S100000x1.Idx → EReal)))
          (broadcastInDim S100000x32 ![0, 1] bcast_S1x32_S100000x32_0_1
            (broadcastInDim S1x32 ![1] bcast_S32_S1x32_1 (V (Proc.devRef .tc main_arg5) : S32.Idx → EReal))) := by
  after_results

/-- THE KERNEL PROGRAM'S RESULT: `agg2` scaled row by row by `dinv`, plus the second bias along the columns. -/
theorem result_eq : W7 m ρ c (Proc.devRef .tc main_v43)
    = addf (F := Ideal) (mulf (F := Ideal) (agg2 m ρ c) (broadcastInDim S100000x32 ![0, 1] bcast_S100000x1_S100000x32_0_1 (dinvCol m c)))
        (val_main_v86 (F := Ideal) (b2 m c)) := by
  refine (last_of (W6 m ρ c)).trans ?_
  rw [exit1_src m ρ c, exit1_dst m ρ c, exit1_dinv m ρ c, exit1_b2 m ρ c]
  rfl

end Cert.KernelIdeal.Stages
-- ==== Proof.RealSums.lean ====
/-
  Sums of real numbers inside the extended reals, and the one law that joins the two programs.

  At the ideal instance a float is an extended real. The extended reals are a commutative monoid under `+` and under `·`,
  but multiplication does NOT distribute over addition once an infinity is about: `(⊤ + ⊥) · x` and `⊤ · x + ⊥ · x` differ.
  Both programs normalise a node's incoming messages by `dinv[src] · dinv[dst]`; the reference multiplies every message by
  both factors before adding the messages up at their destination, the kernel multiplies by the source's factor before and
  by the destination's factor after. Moving the destination's factor across the sum is distributivity, and it holds
  because, under the precondition, every quantity in sight is a real number. This module has the closure facts ("a real
  stays a real") and that law, over any finite index set.
-/
import Idealize.ShloMosaic.PureOps.Ideal

namespace Cert.RealSums

/-- An extended real that is a real number: neither infinity. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

/-- The larger of two reals is one of them. -/
theorem IsReal.max {x y : EReal} (hx : IsReal x) (hy : IsReal y) : IsReal (max x y) := by
  rcases le_total x y with h | h
  · rw [max_eq_right h]; exact hy
  · rw [max_eq_left h]; exact hx

/-- A finite sum of reals is a real. -/
theorem IsReal.sum {ι : Type} (s : Finset ι) (f : ι → EReal) (h : ∀ j ∈ s, IsReal (f j)) :
    IsReal (∑ j ∈ s, f j) := by
  classical
  induction s using Finset.induction_on with
  | empty => rw [Finset.sum_empty]; exact IsReal.zero
  | insert a s ha ih =>
    rw [Finset.sum_insert ha]
    exact (h a (Finset.mem_insert_self a s)).add (ih fun j hj => h j (Finset.mem_insert_of_mem hj))

/-- Among reals, a factor distributes over a sum of two. -/
theorem add_mul_of_real {x y d : EReal} : IsReal x → IsReal y → IsReal d → (x + y) * d = x * d + y * d := by
  rintro ⟨a, rfl⟩ ⟨b, rfl⟩ ⟨c, rfl⟩
  rw [← EReal.coe_add, ← EReal.coe_mul, ← EReal.coe_mul, ← EReal.coe_mul, ← EReal.coe_add, add_mul]

/-- Among reals, a factor distributes over a finite sum. -/
theorem sum_mul_of_real {ι : Type} (s : Finset ι) (f : ι → EReal) (hf : ∀ j ∈ s, IsReal (f j)) {d : EReal}
    (hd : IsReal d) : (∑ j ∈ s, f j) * d = ∑ j ∈ s, f j * d := by
  classical
  induction s using Finset.induction_on with
  | empty => rw [Finset.sum_empty, Finset.sum_empty, zero_mul]
  | insert a s ha ih =>
    rw [Finset.sum_insert ha, Finset.sum_insert ha,
      add_mul_of_real (hf a (Finset.mem_insert_self a s))
        (IsReal.sum s f fun j hj => hf j (Finset.mem_insert_of_mem hj)) hd,
      ih fun j hj => hf j (Finset.mem_insert_of_mem hj)]

/-- THE LAW OF ONE LAYER. Over the messages `j ∈ s` that arrive at one destination: message `j` carries the real
    `a j`, its source's factor is `ds j`, and its destination's factor `dd j` is the same `d` for all of them (they
    arrive at the same node). Scaling each message by its source's factor, adding up, and scaling the sum by `d` is
    adding up the messages each scaled by both factors. (Both sums start from the zero the accumulator is filled with.) -/
theorem scale_after_sum {ι : Type} (s : Finset ι) (a ds dd : ι → EReal) (d : EReal)
    (ha : ∀ j ∈ s, IsReal (a j)) (hds : ∀ j ∈ s, IsReal (ds j)) (hd : IsReal d) (hdd : ∀ j ∈ s, dd j = d) :
    (0 + ∑ j ∈ s, a j * ds j) * d = 0 + ∑ j ∈ s, a j * (ds j * dd j) := by
  rw [zero_add, zero_add, sum_mul_of_real s (fun j => a j * ds j) (fun j hj => (ha j hj).mul (hds j hj)) hd]
  refine Finset.sum_congr rfl fun j hj => ?_
  rw [hdd j hj, mul_assoc]

end Cert.RealSums
-- ==== Proof.LibRowGatherScatter.lean ====
/-
  ROW GATHER AND ROW SCATTER, READ AT AN INDEX.

  Two index computations of StableHLO, specialised to the dimension numbers that whole-row indexing produces, and
  each reduced to one line of arithmetic on coordinates.

  * x[idx] for a table x : [N, C] (or a flat x : [N]) and a column of integer indices idx : [M, 1] is a
    stablehlo.gather that collapses axis 0 and keeps axis 1 whole. Result element (e, q) is x at row
    min (max idx[e, 0] 0) (N − 1), column q: the start index is read as a SIGNED integer and clamped into the table
    (a negative index reads row 0, an index ≥ N reads row N − 1). Here max · 0 is Int.toNat.
    (gather_rows_apply, gather_row1_apply.)

  * x.at[idx].add(v) / a segment sum for x : [N, C], idx : [M, 1], v : [M, C] is a stablehlo.scatter whose window is
    one whole row. Update element (e, q) lands on operand element (idx[e, 0], q), the index again read signed but
    NOT clamped: an index outside [0, N) makes the update land nowhere. So update (e, q) lands on (r, q') exactly
    when idx[e, 0] = r and q = q'. (resultIdx_rows.)

  The dimension numbers are records over literal-shaped Shapes ⟨2, ![N, C]⟩ with the sizes N, M, C generic; the
  well-formedness conditions of the records are a parameter wf, decided where the sizes are numerals.
-/
import Idealize.ShloMosaic.Lib.ValueIdx

noncomputable section

namespace Idealize.ShloMosaic.RowIndex

open Idealize.ShloMosaic Idealize.ShloMosaic.ValueIdx

/-! ## Gather of whole rows

Per operand axis a, the operand index of result index j is start j a + batchCoord j a + offCoord j a. There are no
batching axes, so batchCoord is 0 throughout. Axis 0 is collapsed and is the one axis the start index map names: its
offset coordinate is 0 and its start is the start index idx[e, 0], read signed, clamped to [0, N − slice size] with
slice size 1. Axis 1 (when the operand has one) is not named by the start index map, so its start is 0, and it is the
only kept axis, fed by the result's only offset axis: its offset coordinate is q. -/

section Gather
variable {α : Type}

/-- x[idx] for an operand [N, C] and a column of start indices [M, 1]: offset_dims [1], collapsed_slice_dims [0],
    start_index_map [0], index_vector_dim 1, slice_sizes [1, C]; result [M, C]. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, q): the operand at row idx[e, 0], read signed and clamped into [0, N − 1], and
    column q. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q)
      = x (ix2 ⟨min (idx (ix2 e 0)).toInt.toNat (N - 1), by omega⟩ q) := by
  unfold Host.gather
  congr 1
  funext a
  refine Fin.ext ?_
  match a with
  | ⟨0, _⟩ =>
    -- axis 0: no batching, collapsed (offset coordinate 0), start = the clamped start index
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    -- the start index is read at [e, 0]: the batch coordinate e, and component 0 on the index vector's axis
    rw [hsi]
    rfl
  | ⟨1, _⟩ =>
    -- axis 1: no batching, start 0 (the start index map does not name it), offset coordinate q
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hst : (rowGatherDims N M C wf).start (ix2 e q) idx 1 = 0 := by
      unfold GatherDims.start
      rw [dif_neg (show (1 : Fin 2) ∉ ([0] : List (Fin 2)) by decide)]
    have hmem : (1 : Fin 2) ∈ (rowGatherDims N M C wf).sKept :=
      (GatherDims.mem_sKept _ _).mpr ⟨(show (1 : Fin 2) ∉ ([0] : List (Fin 2)) by decide), List.not_mem_nil⟩
    have hoff : (rowGatherDims N M C wf).offCoord (ix2 e q) 1 = q.val := by
      unfold GatherDims.offCoord
      rw [dif_pos hmem]
      rfl
    rw [hst, hoff]; omega

/-- x[idx] for a flat operand [N] and a column of start indices [M, 1]: offset_dims [], collapsed_slice_dims [0],
    start_index_map [0], index_vector_dim 1, slice_sizes [1]; result [M]. -/
abbrev rowGatherDims1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at position idx[e, 0], read signed and clamped into [0, N − 1]. -/
theorem gather_row1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowGatherDims1 N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowGatherDims1 N M wf).start (ix1 e) idx 0 + (rowGatherDims1 N M wf).batchCoord (ix1 e) 0
    + (rowGatherDims1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGatherDims1 N M wf).startIndexMap from List.mem_singleton.mpr rfl)]
  have hsi : (rowGatherDims1 N M wf).siIdx (ix1 e) ⟨List.idxOf (0 : Fin 1) (rowGatherDims1 N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Scatter of whole rows

Per operand axis a, update index j lands at start j a + window j a (an integer), provided that is inside
[0, size a) on EVERY axis; otherwise the update is dropped. Axis 0 is the one axis the scatter-dims-to-operand-dims
map names and it is an inserted window axis: start = idx[e, 0] read signed (no clamp), window = 0. Axis 1 is not
named by the map and is the only kept axis, fed by the updates' only window axis: start = 0, window = q. So the
landing point is (idx[e, 0], q), in range exactly when 0 ≤ idx[e, 0] < N (q < C always holds). -/

section Scatter

/-- x.at[idx].add(v) for an operand [N, C], a column of scatter indices [M, 1] and updates [M, C]:
    update_window_dims [1], inserted_window_dims [0], scatter_dims_to_operand_dims [0], index_vector_dim 1. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On axis 0 the window of update (e, q) starts at the scatter index idx[e, 0], read as a signed integer. -/
theorem start_rows_zero {N M C w : Nat} (wf : ScatterDims.WF ⟨2, ![N, C]⟩ ⟨2, ![M, 1]⟩ ⟨2, ![M, C]⟩ [1] [0] [0] 1)
    (idx : IVec ⟨2, ![M, 1]⟩ w) (e : Fin M) (q : Fin C) :
    (rowScatterDims N M C wf).start (ix2 e q) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e q)
      ⟨List.idxOf (0 : Fin 2) (rowScatterDims N M C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1, which the scatter-dims-to-operand-dims map does not name, the window starts at 0. -/
theorem start_rows_one {N M C w : Nat} (wf : ScatterDims.WF ⟨2, ![N, C]⟩ ⟨2, ![M, 1]⟩ ⟨2, ![M, C]⟩ [1] [0] [0] 1)
    (idx : IVec ⟨2, ![M, 1]⟩ w) (e : Fin M) (q : Fin C) :
    (rowScatterDims N M C wf).start (ix2 e q) idx 1 = 0 := by
  unfold ScatterDims.start
  rw [dif_neg (show (1 : Fin 2) ∉ ([0] : List (Fin 2)) by decide)]

/-- Axis 0 is an inserted window axis: the window coordinate there is 0. -/
theorem window_rows_zero {N M C : Nat} (wf : ScatterDims.WF ⟨2, ![N, C]⟩ ⟨2, ![M, 1]⟩ ⟨2, ![M, C]⟩ [1] [0] [0] 1)
    (e : Fin M) (q : Fin C) : (rowScatterDims N M C wf).window (ix2 e q) 0 = 0 := by
  unfold ScatterDims.window
  rw [dif_neg (show (0 : Fin 2) ∉ Shape.kept (⟨2, ![N, C]⟩ : Shape) ([0] : List (Fin 2)) by
    simp [Shape.kept, List.mem_filter])]

/-- Axis 1 is the one kept axis, fed by the updates' window axis 1: the window coordinate there is the update's
    column q. -/
theorem window_rows_one {N M C : Nat} (wf : ScatterDims.WF ⟨2, ![N, C]⟩ ⟨2, ![M, 1]⟩ ⟨2, ![M, C]⟩ [1] [0] [0] 1)
    (e : Fin M) (q : Fin C) : (rowScatterDims N M C wf).window (ix2 e q) 1 = q.val := by
  unfold ScatterDims.window
  rw [dif_pos (show (1 : Fin 2) ∈ Shape.kept (⟨2, ![N, C]⟩ : Shape) ([0] : List (Fin 2)) by
    simp [Shape.kept, List.mem_filter, List.mem_finRange])]
  rfl

/-- Update (e, q) lands on element (r, q') exactly when row e's scatter index, read signed, is r and the columns
    agree: an index outside [0, N) lands nowhere.

    (→) If the landing point exists it is the function a ↦ (start a + window a).toNat, with 0 ≤ start a + window a
    on every axis; reading the equation of indices at axis 0 gives (idx[e, 0] + 0).toNat = r with 0 ≤ idx[e, 0], so
    idx[e, 0] = r, and at axis 1 gives (0 + q).toNat = q'.
    (←) If idx[e, 0] = r < N then start + window is r on axis 0 and q < C on axis 1, both in range, and the landing
    point's coordinates are r and q. -/
theorem resultIdx_rows {N M C w : Nat} (wf : ScatterDims.WF ⟨2, ![N, C]⟩ ⟨2, ![M, 1]⟩ ⟨2, ![M, C]⟩ [1] [0] [0] 1)
    (idx : IVec ⟨2, ![M, 1]⟩ w) (e : Fin M) (q : Fin C) (r : Fin N) (q' : Fin C) :
    (rowScatterDims N M C wf).resultIdx? (ix2 e q) idx = some (ix2 r q')
      ↔ (idx (ix2 e 0)).toInt = (r.val : Int) ∧ q = q' := by
  have h0s := start_rows_zero wf idx e q
  have h1s := start_rows_one wf idx e q
  have h0w := window_rows_zero wf e q
  have h1w := window_rows_one wf e q
  unfold ScatterDims.resultIdx?
  constructor
  · intro hres
    split at hres
    · rename_i h
      have hf := Option.some.inj hres
      have e0 : ((rowScatterDims N M C wf).start (ix2 e q) idx 0 + (rowScatterDims N M C wf).window (ix2 e q) 0).toNat = r.val :=
        congrArg Fin.val (congrFun hf 0)
      have e1 : ((rowScatterDims N M C wf).start (ix2 e q) idx 1 + (rowScatterDims N M C wf).window (ix2 e q) 1).toNat = q'.val :=
        congrArg Fin.val (congrFun hf 1)
      have b0 := (h 0).1
      -- e0 : (idx[e, 0] + 0).toNat = r and b0 : 0 ≤ idx[e, 0] + 0;  e1 : (0 + q).toNat = q'
      rw [h0s, h0w] at e0 b0
      rw [h1s, h1w] at e1
      exact ⟨by omega, Fin.ext (by omega)⟩
    · exact absurd hres (by simp)
  · rintro ⟨hr, rfl⟩
    -- the landing point is in range on both axes: r < N on axis 0, q < C on axis 1
    have h : ∀ a, 0 ≤ (rowScatterDims N M C wf).start (ix2 e q) idx a + (rowScatterDims N M C wf).window (ix2 e q) a
        ∧ (rowScatterDims N M C wf).start (ix2 e q) idx a + (rowScatterDims N M C wf).window (ix2 e q) a < (⟨2, ![N, C]⟩ : Shape).size a := by
      intro a
      match a with
      | ⟨0, _⟩ =>
        show 0 ≤ (rowScatterDims N M C wf).start (ix2 e q) idx 0 + (rowScatterDims N M C wf).window (ix2 e q) 0
          ∧ (rowScatterDims N M C wf).start (ix2 e q) idx 0 + (rowScatterDims N M C wf).window (ix2 e q) 0 < ((N : Nat) : Int)
        rw [h0s, h0w]; have := r.isLt; omega
      | ⟨1, _⟩ =>
        show 0 ≤ (rowScatterDims N M C wf).start (ix2 e q) idx 1 + (rowScatterDims N M C wf).window (ix2 e q) 1
          ∧ (rowScatterDims N M C wf).start (ix2 e q) idx 1 + (rowScatterDims N M C wf).window (ix2 e q) 1 < ((C : Nat) : Int)
        rw [h1s, h1w]; have := q.isLt; omega
    rw [dif_pos h]
    congr 1
    funext a
    refine Fin.ext ?_
    match a with
    | ⟨0, _⟩ =>
      show ((rowScatterDims N M C wf).start (ix2 e q) idx 0 + (rowScatterDims N M C wf).window (ix2 e q) 0).toNat = r.val
      rw [h0s, h0w]; omega
    | ⟨1, _⟩ =>
      show ((rowScatterDims N M C wf).start (ix2 e q) idx 1 + (rowScatterDims N M C wf).window (ix2 e q) 1).toNat = q.val
      rw [h1s, h1w]; omega

end Scatter

end Idealize.ShloMosaic.RowIndex
-- ==== Proof.ScaledLayer.lean ====
/-
  One normalised message-passing layer at one entry, the kernel's way and the reference's way.

  The layer has a table `H` of node features ([N, C]), a factor `D` per node ([N]: the inverse square root of its degree),
  and M edges, edge `e` from the node its source index names to the node its destination index names. A gather clamps a
  source index into the rows [0, N − 1]; a scatter-add drops an edge whose destination index is outside [0, N).

  The kernel's way: message `(e, q)` is `H[src e, q] · D[src e]`; the messages are added up at their destinations, and
  the sum at node `r` is then scaled by `D[r]`. The reference's way: message `(e, q)` is `H[src e, q] · (D[src e] ·
  D[dst' e])` with `dst'` the destination index after jnp's negative-index wrap-around, and the sum is not scaled.
  At entry `(r, q)` only the edges that land on row `r` contribute, the same edges on both sides; for those the
  destination index is `r` itself, in range, so wrap-around and clamping leave it alone and `D[dst' e] = D[r]`. What remains is
  moving the factor `D[r]` across the sum, which holds among reals (RealSums).
-/
import proofs.«139203_j38070590112102_2_alg».proof.Proof.RealSums
import proofs.«139203_j38070590112102_2_alg».proof.Proof.LibRowGatherScatter
import Idealize.ShloMosaic.PureOps.Ideal

noncomputable section

namespace Cert.ScaledLayer

open Idealize.ShloMosaic Idealize.ShloMosaic.ValueIdx Idealize.ShloMosaic.RowIndex Cert.RealSums

/-- A start index read as a signed integer and clamped into the rows `[0, N − 1]`: the row a gather of whole rows reads. -/
def clampRow {N : Nat} (hN : 0 < N) (v : BitVec 32) : Fin N := ⟨min v.toInt.toNat (N - 1), by omega⟩

/-- An index that already names a row is left alone by the clamp. -/
theorem clampRow_of_toInt {N : Nat} (hN : 0 < N) (v : BitVec 32) (r : Fin N) (h : v.toInt = (r.val : Int)) :
    clampRow hN v = r := by
  apply Fin.ext
  show min v.toInt.toNat (N - 1) = r.val
  have hr : r.val < N := r.isLt
  omega

variable {N M C : Nat}

/-- The sums over the edges landing on entry `(r, q)`: `s` is any set of update positions all of which land there. -/
theorem scaled_sum (hN : 0 < N) (wfs : ScatterDims.WF ⟨2, ![N, C]⟩ ⟨2, ![M, 1]⟩ ⟨2, ![M, C]⟩ [1] [0] [0] 1)
    (H : (⟨2, ![N, C]⟩ : Shape).Idx → EReal) (D : (⟨1, ![N]⟩ : Shape).Idx → EReal)
    (src dst dstn : IVec ⟨2, ![M, 1]⟩ 32) (G U : (⟨2, ![M, C]⟩ : Shape).Idx → EReal)
    (hG : ∀ (e : Fin M) (q : Fin C), G (ix2 e q)
      = H (ix2 (clampRow hN (src (ix2 e 0))) q) * D (ix1 (clampRow hN (src (ix2 e 0)))))
    (hU : ∀ (e : Fin M) (q : Fin C), U (ix2 e q)
      = H (ix2 (clampRow hN (src (ix2 e 0))) q)
          * (D (ix1 (clampRow hN (src (ix2 e 0)))) * D (ix1 (clampRow hN (dstn (ix2 e 0))))))
    (hH : ∀ i, IsReal (H i)) (hD : ∀ i, IsReal (D i))
    (hn : ∀ (e : Fin M) (r : Fin N), (dst (ix2 e 0)).toInt = (r.val : Int) → (dstn (ix2 e 0)).toInt = (r.val : Int))
    (r : Fin N) (q : Fin C) (s : Finset (⟨2, ![M, C]⟩ : Shape).Idx)
    (hs : ∀ j ∈ s, (rowScatterDims N M C wfs).resultIdx? j dst = some (ix2 r q)) :
    (0 + ∑ j ∈ s, G j) * D (ix1 r) = 0 + ∑ j ∈ s, U j := by
  -- message j's feature, its source's factor, its destination's factor
  let a : (⟨2, ![M, C]⟩ : Shape).Idx → EReal := fun j => H (ix2 (clampRow hN (src (ix2 (j 0) 0))) (j 1))
  let ds : (⟨2, ![M, C]⟩ : Shape).Idx → EReal := fun j => D (ix1 (clampRow hN (src (ix2 (j 0) 0))))
  let dd : (⟨2, ![M, C]⟩ : Shape).Idx → EReal := fun j => D (ix1 (clampRow hN (dstn (ix2 (j 0) 0))))
  have e1 : ∀ j, G j = a j * ds j := fun j => (congrArg G (eq_ix2 j)).trans (hG (j 0) (j 1))
  have e2 : ∀ j, U j = a j * (ds j * dd j) := fun j => (congrArg U (eq_ix2 j)).trans (hU (j 0) (j 1))
  rw [Finset.sum_congr rfl (fun j _ => e1 j), Finset.sum_congr rfl (fun j _ => e2 j)]
  refine scale_after_sum s a ds dd (D (ix1 r)) (fun j _ => hH _) (fun j _ => hD _) (hD _) (fun j hj => ?_)
  -- an edge that lands on row r has destination index r: wrap-around and clamping leave it alone
  have hj' := hs j hj
  rw [eq_ix2 j] at hj'
  have hdst := ((resultIdx_rows wfs dst (j 0) (j 1) r q).mp hj').1
  show D (ix1 (clampRow hN (dstn (ix2 (j 0) 0)))) = D (ix1 r)
  rw [clampRow_of_toInt hN _ r (hn (j 0) r hdst)]

/-- THE LAYER AT ONE ENTRY: the scatter-add of the source-scaled messages, scaled afterwards by the destination's factor,
    is the scatter-add of the messages scaled by both factors (both into an accumulator of zeros). -/
theorem scaled_layer (hN : 0 < N) (wfs : ScatterDims.WF ⟨2, ![N, C]⟩ ⟨2, ![M, 1]⟩ ⟨2, ![M, C]⟩ [1] [0] [0] 1)
    (H : (⟨2, ![N, C]⟩ : Shape).Idx → EReal) (D : (⟨1, ![N]⟩ : Shape).Idx → EReal)
    (src dst dstn : IVec ⟨2, ![M, 1]⟩ 32) (G U : (⟨2, ![M, C]⟩ : Shape).Idx → EReal)
    (hG : ∀ (e : Fin M) (q : Fin C), G (ix2 e q)
      = H (ix2 (clampRow hN (src (ix2 e 0))) q) * D (ix1 (clampRow hN (src (ix2 e 0)))))
    (hU : ∀ (e : Fin M) (q : Fin C), U (ix2 e q)
      = H (ix2 (clampRow hN (src (ix2 e 0))) q)
          * (D (ix1 (clampRow hN (src (ix2 e 0)))) * D (ix1 (clampRow hN (dstn (ix2 e 0))))))
    (hH : ∀ i, IsReal (H i)) (hD : ∀ i, IsReal (D i))
    (hn : ∀ (e : Fin M) (r : Fin N), (dst (ix2 e 0)).toInt = (r.val : Int) → (dstn (ix2 e 0)).toInt = (r.val : Int))
    (r : Fin N) (q : Fin C) :
    Ideal.hostScatterAdd (rowScatterDims N M C wfs) (fun _ => 0) dst G (ix2 r q) * D (ix1 r)
      = Ideal.hostScatterAdd (rowScatterDims N M C wfs) (fun _ => 0) dst U (ix2 r q) := by
  unfold Ideal.hostScatterAdd
  exact scaled_sum hN wfs H D src dst dstn G U hG hU hH hD hn r q _ (fun j hj => (Finset.mem_filter.mp hj).2)

/-- The same, said of the host operation: at the ideal instance the host's scatter-add IS each operand entry plus the sum
    of the updates landing on it. -/
theorem scaled_layer_host (hN : 0 < N) (wfs : ScatterDims.WF ⟨2, ![N, C]⟩ ⟨2, ![M, 1]⟩ ⟨2, ![M, C]⟩ [1] [0] [0] 1)
    (H : (⟨2, ![N, C]⟩ : Shape).Idx → EReal) (D : (⟨1, ![N]⟩ : Shape).Idx → EReal)
    (src dst dstn : IVec ⟨2, ![M, 1]⟩ 32) (G U : (⟨2, ![M, C]⟩ : Shape).Idx → EReal)
    (hG : ∀ (e : Fin M) (q : Fin C), G (ix2 e q)
      = H (ix2 (clampRow hN (src (ix2 e 0))) q) * D (ix1 (clampRow hN (src (ix2 e 0)))))
    (hU : ∀ (e : Fin M) (q : Fin C), U (ix2 e q)
      = H (ix2 (clampRow hN (src (ix2 e 0))) q)
          * (D (ix1 (clampRow hN (src (ix2 e 0)))) * D (ix1 (clampRow hN (dstn (ix2 e 0))))))
    (hH : ∀ i, IsReal (H i)) (hD : ∀ i, IsReal (D i))
    (hn : ∀ (e : Fin M) (r : Fin N), (dst (ix2 e 0)).toInt = (r.val : Int) → (dstn (ix2 e 0)).toInt = (r.val : Int))
    (r : Fin N) (q : Fin C) :
    Host.scatterAdd (F := Ideal) (φ := .f32) (rowScatterDims N M C wfs) (fun _ => (0 : EReal)) dst G (ix2 r q) * D (ix1 r)
      = Host.scatterAdd (F := Ideal) (φ := .f32) (rowScatterDims N M C wfs) (fun _ => (0 : EReal)) dst U (ix2 r q) :=
  scaled_layer hN wfs H D src dst dstn G U hG hU hH hD hn r q

/-- A scatter-add of reals into zeros is a real. -/
theorem isReal_scatterAdd {s si su : Shape} (d : ScatterDims s si su) {w : Nat} (idx : IVec si w) (U : su.Idx → EReal)
    (hU : ∀ j, IsReal (U j)) (i : s.Idx) : IsReal (Ideal.hostScatterAdd d (fun _ => 0) idx U i) := by
  unfold Ideal.hostScatterAdd
  exact IsReal.zero.add (IsReal.sum _ _ fun j _ => hU j)

end Cert.ScaledLayer
-- ==== Proof.RefFacts.lean ====
/-
  The reference's stages at the ideal instance: which are real numbers, and its per-edge messages in closed form.

  Notation (n = 100,000 nodes, M = 1,700,000 edges with the self loops): `src`, `dst` the edge lists; `src'`, `dst'` the same
  after jnp's negative-index wrap-around (`i < 0 ↦ i + n`); `deg[v]` the number of edges whose destination index is `v`;
  `dinv[v] = 1/√deg[v]` where `deg[v] > 0` and `0` elsewhere; `h = x · W1`.

  * `deg` is a sum of ones, a real; the inverse square root of a positive real is a real: `dinv` is real-valued whatever
    the edge list holds.
  * An in-range destination index is not negative, so wrap-around leaves it alone.
  * The message of edge `e` in column `q` is `h[clamp src' e, q] · (dinv[clamp src' e] · dinv[clamp dst' e])`: a gather
    clamps its start index into the rows.
-/
import proofs.«139203_j38070590112102_2_alg».proof.Proof.RefRead
import proofs.«139203_j38070590112102_2_alg».proof.Proof.ScaledLayer
import Idealize.ShloMosaic.Lib.Affine
import Idealize.ShloMosaic.PureOps.Ideal.Laws

set_option maxRecDepth 16384

noncomputable section

namespace Cert.ReferenceIdeal.Facts

open Cert.ReferenceIdeal Cert.ReferenceIdeal.Gen Cert.ReferenceIdeal.ReadP
open Idealize.ShloMosaic Idealize.ShloMosaic.ValueIdx Idealize.ShloMosaic.RowIndex Cert.RealSums Cert.ScaledLayer

/-! ## Float words that are real numbers -/

/-- A float word whose exponent field is not all ones denotes a real number (a zero, a subnormal or a normal). -/
theorem isReal_ieee {e mw w : Nat} (b : BitVec w) (h : (b.extractLsb' mw e).toNat ≠ 2 ^ e - 1) :
    IsReal (Ideal.ieee e mw b) := by
  simp only [Ideal.ieee]
  rw [if_neg h]
  split_ifs <;> exact ⟨_, rfl⟩

/-- The word of `1.0`. -/
theorem isReal_one : IsReal (Ideal.ofBits .f32 0x3F800000#32) :=
  isReal_ieee (e := 8) (mw := 23) (0x3F800000#32 : BitVec 32) (by decide)

/-! ## The constant stages, opened by rewriting (never by unfolding a float word) -/

theorem ones_apply (j : S1700000.Idx) : val_main_v7 (F := Ideal) j = Ideal.ofBits .f32 0x3F800000#32 := by
  rw [val_main_v7_apply, val_main_cst_apply, Ideal.ofBits_def]
theorem zeros_deg_apply (i : S100000.Idx) : val_main_v8 (F := Ideal) i = 0 := by
  rw [val_main_v8_apply, val_main_cst_0_apply, Ideal.ofBits_def, Ideal.ofBits_zero_f32]
theorem zeros_cmp_apply (i : S100000.Idx) : val_main_v11 (F := Ideal) i = 0 := by
  rw [val_main_v11_apply, val_main_cst_1_apply, Ideal.ofBits_def, Ideal.ofBits_zero_f32]
theorem zeros_where_apply (i : S100000.Idx) : val_main_call0_v1 (F := Ideal) i = 0 := by
  rw [val_main_call0_v1_apply, val_main_call0_v0_apply, val_main_cst_2_apply, Ideal.ofBits_def, Ideal.ofBits_zero_f32]
theorem zeros64_apply (i : S100000x64.Idx) : val_main_v41 (F := Ideal) i = 0 := by
  rw [val_main_v41_apply, val_main_cst_8_apply, Ideal.ofBits_def, Ideal.ofBits_zero_f32]
theorem zeros_relu_apply (i : S100000x64.Idx) : val_main_call1_v0 (F := Ideal) i = 0 := by
  rw [val_main_call1_v0_apply, val_main_call1_cst_apply, Ideal.ofBits_def, Ideal.ofBits_zero_f32]
theorem zeros32_apply (i : S100000x32.Idx) : val_main_v82 (F := Ideal) i = 0 := by
  rw [val_main_v82_apply, val_main_cst_19_apply, Ideal.ofBits_def, Ideal.ofBits_zero_f32]
theorem zeros64 : val_main_v41 (F := Ideal) = fun _ => 0 := funext zeros64_apply
theorem zeros32 : val_main_v82 (F := Ideal) = fun _ => 0 := funext zeros32_apply

/-! ## The degree and its inverse square root -/

theorem nPos : 0 < 100000 := by decide

/-- A host scatter-add of reals into reals is a real (stated for any shapes: at the ideal instance the host's
    scatter-add is each operand entry plus the sum of the updates that land on it). -/
theorem isReal_hostScatterAdd {s si su : Shape} (d : ScatterDims s si su) {w : Nat} (x : FVec Ideal s .f32) (idx : IVec si w)
    (U : FVec Ideal su .f32) (hx : ∀ i, IsReal (x i)) (hU : ∀ j, IsReal (U j)) (i : s.Idx) :
    IsReal (Host.scatterAdd (F := Ideal) d x idx U i) := by
  show IsReal (Ideal.hostScatterAdd d x idx U i)
  unfold Ideal.hostScatterAdd
  exact (hx i).add (IsReal.sum _ _ fun j _ => hU j)

/-- The degree of a node is a real: zero plus a finite sum of ones. -/
theorem deg_real (x1 : IVec S2x1600000 32) (i : S100000.Idx) : IsReal (val_main_v10 (F := Ideal) x1 i) := by
  have h : val_main_v10 (F := Ideal) x1 = Host.scatterAdd (F := Ideal) scatter_S100000_S1700000x1_S1700000_n_0_0_1
      (val_main_v8 (F := Ideal)) (val_main_v9 (F := Ideal) x1) (val_main_v7 (F := Ideal)) := rfl
  rw [h]
  exact isReal_hostScatterAdd _ _ _ _ (fun i => by rw [zeros_deg_apply]; exact IsReal.zero)
    (fun j => by rw [ones_apply]; exact isReal_one) i

/-- `dinv` is real-valued: the inverse square root of a positive real, or the fallback zero. -/
theorem dinv_real (x1 : IVec S2x1600000 32) (i : S100000.Idx) : IsReal (val_main_v14 (F := Ideal) x1 i) := by
  rw [val_main_v14_apply, val_main_v12_apply, val_main_v13_apply, zeros_cmp_apply, zeros_where_apply,
    Ideal.hostUnary_rsqrt_def]
  obtain ⟨d, hd⟩ := deg_real x1 i
  rw [hd]
  show IsReal (Scalar.select (Ideal.cmp .ogt (d : EReal) 0) (Ideal.rsqrt (d : EReal)) 0)
  unfold Scalar.select Ideal.cmp
  by_cases hpos : (0 : EReal) < (d : EReal)
  · have hd0 : (0 : ℝ) < d := by exact_mod_cast hpos
    have hc : BitVec.ofBool (decide ((0 : EReal) < (d : EReal))) = 1 := by rw [decide_eq_true hpos]; rfl
    rw [if_pos hc, Ideal.rsqrt_coe, if_neg (not_lt.mpr hd0.le), if_neg (ne_of_gt hd0)]
    exact IsReal.coe _
  · have hc : ¬ BitVec.ofBool (decide ((0 : EReal) < (d : EReal))) = 1 := by rw [decide_eq_false hpos]; decide
    rw [if_neg hc]
    exact IsReal.zero

/-! ## Wrap-around leaves an in-range index alone -/

/-- If edge `e`'s destination index, read signed, is the row `r`, so is its wrapped destination index. -/
theorem wrap_keeps (x1 : IVec S2x1600000 32) (e : Fin 1700000) (r : Fin 100000)
    (h : (val_main_v42 (F := Ideal) x1 (ix2 e 0)).toInt = (r.val : Int)) :
    (val_main_v27 (F := Ideal) x1 (ix2 e 0)).toInt = (r.val : Int) := by
  rw [val_main_v42_apply] at h
  rw [val_main_v27_apply, val_main_v26_apply, val_main_v23_apply]
  have hj : idx_main_v27 (ix2 e (0 : Fin 1)) = idx_main_v42 (ix2 e (0 : Fin 1)) := rfl
  rw [hj]
  have h22 : val_main_v22 (F := Ideal) (idx_main_v42 (ix2 e (0 : Fin 1))) = 0#32 := by
    rw [val_main_v22_apply]; rfl
  have hne : IntOp.cmpi .slt (val_main_v6 (F := Ideal) x1 (idx_main_v42 (ix2 e (0 : Fin 1))))
      (val_main_v22 (F := Ideal) (idx_main_v42 (ix2 e (0 : Fin 1)))) ≠ 1#1 := by
    rw [h22]
    intro hc
    have hlt := IntOp.cmpi_slt.mp hc
    rw [h] at hlt
    have h0 : (0#32 : BitVec 32).toInt = 0 := by decide
    omega
  have hne' : ¬ (IntOp.cmpi .slt (val_main_v6 (F := Ideal) x1 (idx_main_v42 (ix2 e (0 : Fin 1))))
      (val_main_v22 (F := Ideal) (idx_main_v42 (ix2 e (0 : Fin 1)))) = (1 : BitVec 1)) := hne
  unfold Scalar.select
  rw [if_neg hne']
  exact h

/-! ## The first dense product `h = x · W1` -/

theorem h1_apply (x0 : FVec Ideal S100000x1024 .f32) (x2 : FVec Ideal S1024x64 .f32) (r : Fin 100000) (q : Fin 64) :
    val_main_v30 (F := Ideal) x0 x2 (ix2 r q) = ∑ k : Fin 1024, x0 (ix2 r k) * x2 (ix2 k q) := by
  rw [val_main_v30_apply]
  refine Finset.sum_congr rfl fun k _ => ?_
  have hl : lidx_main_v30 (ix2 r q) k = ix2 r k := by funext a; match a with | ⟨0, _⟩ => rfl | ⟨1, _⟩ => rfl
  have hr : ridx_main_v30 (ix2 r q) k = ix2 k q := by funext a; match a with | ⟨0, _⟩ => rfl | ⟨1, _⟩ => rfl
  rw [hl, hr]

theorem h1_real (x0 : FVec Ideal S100000x1024 .f32) (x2 : FVec Ideal S1024x64 .f32) (hx0 : ∀ i, IsReal (x0 i))
    (hx2 : ∀ i, IsReal (x2 i)) (i : S100000x64.Idx) : IsReal (val_main_v30 (F := Ideal) x0 x2 i) := by
  rw [val_main_v30_apply]
  exact IsReal.sum _ _ fun k _ => (hx0 _).mul (hx2 _)

/-! ## The first layer's messages -/

/-- Edge `e`'s message in column `q`: the feature row at the clamped wrapped source, times the two factors. -/
theorem msg1_apply (x0 : FVec Ideal S100000x1024 .f32) (x1 : IVec S2x1600000 32) (x2 : FVec Ideal S1024x64 .f32)
    (e : Fin 1700000) (q : Fin 64) :
    val_main_v40 (F := Ideal) x0 x1 x2 (ix2 e q)
      = val_main_v30 (F := Ideal) x0 x2 (ix2 (clampRow nPos (val_main_v36 (F := Ideal) x1 (ix2 e 0))) q)
        * (val_main_v14 (F := Ideal) x1 (ix1 (clampRow nPos (val_main_v36 (F := Ideal) x1 (ix2 e 0))))
           * val_main_v14 (F := Ideal) x1 (ix1 (clampRow nPos (val_main_v27 (F := Ideal) x1 (ix2 e 0))))) := by
  rw [val_main_v40_apply, val_main_v39_apply, val_main_v38_apply, val_main_v29_apply]
  have i39 : idx_main_v39 (ix2 e q) = ix2 e (0 : Fin 1) := by
    funext a; match a with | ⟨0, _⟩ => rfl | ⟨1, _⟩ => rfl
  have i38 : idx_main_v38 (ix2 e (0 : Fin 1)) = ix1 e := by
    funext a; match a with | ⟨0, _⟩ => rfl
  rw [i39, i38]
  have g37 : val_main_v37 (F := Ideal) x0 x1 x2 (ix2 e q)
      = val_main_v30 (F := Ideal) x0 x2 (ix2 (clampRow nPos (val_main_v36 (F := Ideal) x1 (ix2 e 0))) q) :=
    gather_rows_apply nPos gather_S100000x64_S1700000x1_S1700000x64_1_0_n_n_0_1_164.wf
      (val_main_v30 (F := Ideal) x0 x2) (val_main_v36 (F := Ideal) x1) e q
  have g21 : val_main_v21 (F := Ideal) x1 (ix1 e)
      = val_main_v14 (F := Ideal) x1 (ix1 (clampRow nPos (val_main_v36 (F := Ideal) x1 (ix2 e 0)))) :=
    gather_row1_apply nPos gather_S100000_S1700000x1_S1700000_n_0_n_n_0_1_1.wf
      (val_main_v14 (F := Ideal) x1) (val_main_v36 (F := Ideal) x1) e
  have g28 : val_main_v28 (F := Ideal) x1 (ix1 e)
      = val_main_v14 (F := Ideal) x1 (ix1 (clampRow nPos (val_main_v27 (F := Ideal) x1 (ix2 e 0)))) :=
    gather_row1_apply nPos gather_S100000_S1700000x1_S1700000_n_0_n_n_0_1_1.wf
      (val_main_v14 (F := Ideal) x1) (val_main_v27 (F := Ideal) x1) e
  rw [g37, g21, g28]
  rfl

theorem msg1_real (x0 : FVec Ideal S100000x1024 .f32) (x1 : IVec S2x1600000 32) (x2 : FVec Ideal S1024x64 .f32)
    (hx0 : ∀ i, IsReal (x0 i)) (hx2 : ∀ i, IsReal (x2 i)) (j : S1700000x64.Idx) :
    IsReal (val_main_v40 (F := Ideal) x0 x1 x2 j) := by
  have h := (congrArg (val_main_v40 (F := Ideal) x0 x1 x2) (eq_ix2 j)).trans (msg1_apply x0 x1 x2 (j 0) (j 1))
  rw [h]
  exact (h1_real x0 x2 hx0 hx2 _).mul ((dinv_real x1 _).mul (dinv_real x1 _))

/-- The first layer's sums are reals. -/
theorem agg1_real (x0 : FVec Ideal S100000x1024 .f32) (x1 : IVec S2x1600000 32) (x2 : FVec Ideal S1024x64 .f32)
    (hx0 : ∀ i, IsReal (x0 i)) (hx2 : ∀ i, IsReal (x2 i)) (i : S100000x64.Idx) :
    IsReal (val_main_v43 (F := Ideal) x0 x1 x2 i) := by
  have h : val_main_v43 (F := Ideal) x0 x1 x2 = Host.scatterAdd (F := Ideal) scatter_S100000x64_S1700000x1_S1700000x64_1_0_0_1
      (val_main_v41 (F := Ideal)) (val_main_v42 (F := Ideal) x1) (val_main_v40 (F := Ideal) x0 x1 x2) := rfl
  rw [h]
  exact isReal_hostScatterAdd _ _ _ _ (fun i => by rw [zeros64_apply]; exact IsReal.zero)
    (msg1_real x0 x1 x2 hx0 hx2) i

/-! ## The activation between the layers: `relu(sum + b1)` -/

theorem act1_apply (x0 : FVec Ideal S100000x1024 .f32) (x1 : IVec S2x1600000 32) (x2 : FVec Ideal S1024x64 .f32)
    (x3 : FVec Ideal S64 .f32) (r : Fin 100000) (k : Fin 64) :
    val_main_v47 (F := Ideal) x0 x1 x2 x3 (ix2 r k)
      = max (val_main_v43 (F := Ideal) x0 x1 x2 (ix2 r k) + x3 (ix1 k)) 0 := by
  rw [val_main_v47_apply, val_main_v46_apply, zeros_relu_apply, val_main_v45_apply, val_main_v44_apply]
  have hi : idx_main_v44 (idx_main_v45 (ix2 r k)) = ix1 k := by
    funext a; match a with | ⟨0, _⟩ => rfl
  rw [hi, Ideal.maximumf_def, Ideal.addf_def]

theorem act1_real (x0 : FVec Ideal S100000x1024 .f32) (x1 : IVec S2x1600000 32) (x2 : FVec Ideal S1024x64 .f32)
    (x3 : FVec Ideal S64 .f32) (hx0 : ∀ i, IsReal (x0 i)) (hx2 : ∀ i, IsReal (x2 i)) (hx3 : ∀ i, IsReal (x3 i))
    (i : S100000x64.Idx) : IsReal (val_main_v47 (F := Ideal) x0 x1 x2 x3 i) := by
  have h := (congrArg (val_main_v47 (F := Ideal) x0 x1 x2 x3) (eq_ix2 i)).trans (act1_apply x0 x1 x2 x3 (i 0) (i 1))
  rw [h]
  exact ((agg1_real x0 x1 x2 hx0 hx2 _).add (hx3 _)).max IsReal.zero

/-! ## The second dense product `h₂ = relu(…) · W2` -/

theorem h2_apply (x0 : FVec Ideal S100000x1024 .f32) (x1 : IVec S2x1600000 32) (x2 : FVec Ideal S1024x64 .f32)
    (x3 : FVec Ideal S64 .f32) (x4 : FVec Ideal S64x32 .f32) (r : Fin 100000) (q : Fin 32) :
    val_main_v71 (F := Ideal) x0 x1 x2 x3 x4 (ix2 r q)
      = ∑ k : Fin 64, val_main_v47 (F := Ideal) x0 x1 x2 x3 (ix2 r k) * x4 (ix2 k q) := by
  rw [val_main_v71_apply]
  refine Finset.sum_congr rfl fun k _ => ?_
  have hl : lidx_main_v71 (ix2 r q) k = ix2 r k := by funext a; match a with | ⟨0, _⟩ => rfl | ⟨1, _⟩ => rfl
  have hr : ridx_main_v71 (ix2 r q) k = ix2 k q := by funext a; match a with | ⟨0, _⟩ => rfl | ⟨1, _⟩ => rfl
  rw [hl, hr]

theorem h2_real (x0 : FVec Ideal S100000x1024 .f32) (x1 : IVec S2x1600000 32) (x2 : FVec Ideal S1024x64 .f32)
    (x3 : FVec Ideal S64 .f32) (x4 : FVec Ideal S64x32 .f32) (hx0 : ∀ i, IsReal (x0 i)) (hx2 : ∀ i, IsReal (x2 i))
    (hx3 : ∀ i, IsReal (x3 i)) (hx4 : ∀ i, IsReal (x4 i)) (i : S100000x32.Idx) :
    IsReal (val_main_v71 (F := Ideal) x0 x1 x2 x3 x4 i) := by
  rw [val_main_v71_apply]
  exact IsReal.sum _ _ fun k _ => (act1_real x0 x1 x2 x3 hx0 hx2 hx3 _).mul (hx4 _)

/-! ## The second layer recomputes the same edge quantities -/

theorem dinv_again (x1 : IVec S2x1600000 32) : val_main_v55 (F := Ideal) x1 = val_main_v14 (F := Ideal) x1 := rfl
theorem src_again (x1 : IVec S2x1600000 32) : val_main_v77 (F := Ideal) x1 = val_main_v36 (F := Ideal) x1 := rfl
theorem wrapped_dst_again (x1 : IVec S2x1600000 32) : val_main_v68 (F := Ideal) x1 = val_main_v27 (F := Ideal) x1 := rfl
theorem dst_again (x1 : IVec S2x1600000 32) : val_main_v83 (F := Ideal) x1 = val_main_v42 (F := Ideal) x1 := rfl

/-- Edge `e`'s second-layer message in column `q`. -/
theorem msg2_apply (x0 : FVec Ideal S100000x1024 .f32) (x1 : IVec S2x1600000 32) (x2 : FVec Ideal S1024x64 .f32)
    (x3 : FVec Ideal S64 .f32) (x4 : FVec Ideal S64x32 .f32) (e : Fin 1700000) (q : Fin 32) :
    val_main_v81 (F := Ideal) x0 x1 x2 x3 x4 (ix2 e q)
      = val_main_v71 (F := Ideal) x0 x1 x2 x3 x4 (ix2 (clampRow nPos (val_main_v36 (F := Ideal) x1 (ix2 e 0))) q)
        * (val_main_v14 (F := Ideal) x1 (ix1 (clampRow nPos (val_main_v36 (F := Ideal) x1 (ix2 e 0))))
           * val_main_v14 (F := Ideal) x1 (ix1 (clampRow nPos (val_main_v27 (F := Ideal) x1 (ix2 e 0))))) := by
  rw [val_main_v81_apply, val_main_v80_apply, val_main_v79_apply, val_main_v70_apply]
  have i80 : idx_main_v80 (ix2 e q) = ix2 e (0 : Fin 1) := by
    funext a; match a with | ⟨0, _⟩ => rfl | ⟨1, _⟩ => rfl
  have i79 : idx_main_v79 (ix2 e (0 : Fin 1)) = ix1 e := by
    funext a; match a with | ⟨0, _⟩ => rfl
  rw [i80, i79]
  have g78 : val_main_v78 (F := Ideal) x0 x1 x2 x3 x4 (ix2 e q)
      = val_main_v71 (F := Ideal) x0 x1 x2 x3 x4 (ix2 (clampRow nPos (val_main_v77 (F := Ideal) x1 (ix2 e 0))) q) :=
    gather_rows_apply nPos gather_S100000x32_S1700000x1_S1700000x32_1_0_n_n_0_1_132.wf
      (val_main_v71 (F := Ideal) x0 x1 x2 x3 x4) (val_main_v77 (F := Ideal) x1) e q
  have g62 : val_main_v62 (F := Ideal) x1 (ix1 e)
      = val_main_v55 (F := Ideal) x1 (ix1 (clampRow nPos (val_main_v61 (F := Ideal) x1 (ix2 e 0)))) :=
    gather_row1_apply nPos gather_S100000_S1700000x1_S1700000_n_0_n_n_0_1_1.wf
      (val_main_v55 (F := Ideal) x1) (val_main_v61 (F := Ideal) x1) e
  have g69 : val_main_v69 (F := Ideal) x1 (ix1 e)
      = val_main_v55 (F := Ideal) x1 (ix1 (clampRow nPos (val_main_v68 (F := Ideal) x1 (ix2 e 0)))) :=
    gather_row1_apply nPos gather_S100000_S1700000x1_S1700000_n_0_n_n_0_1_1.wf
      (val_main_v55 (F := Ideal) x1) (val_main_v68 (F := Ideal) x1) e
  have s61 : val_main_v61 (F := Ideal) x1 = val_main_v36 (F := Ideal) x1 := rfl
  rw [g78, g62, g69, s61, src_again, wrapped_dst_again, dinv_again]
  rfl

end Cert.ReferenceIdeal.Facts
-- ==== Proof.GcnEqual.lean ====
/-
  The kernel program's result is the reference's, entry by entry, when the float inputs are real numbers.

  With `h = x · W1`, `D = dinv`, and the sums running over the edges `e` that land on row `r`:

    layer 1   (∑ₑ h[src e, k] · D[src e]) · D[r]            =  ∑ₑ h[src e, k] · (D[src e] · D[dst e])
    between   max(that + b1[k], 0)  on both sides, so the second dense product `h₂ = relu(…) · W2` is the same
    layer 2   (∑ₑ h₂[src e, q] · D[src e]) · D[r]           =  ∑ₑ h₂[src e, q] · (D[src e] · D[dst e])
    result    that + b2[q]  on both sides.

  Each layer equation is the law of ScaledLayer; what the kernels hold is KernelStages; what the reference holds and
  which of its quantities are real is RefFacts.
-/
import proofs.«139203_j38070590112102_2_alg».proof.Proof.KernelStages
import proofs.«139203_j38070590112102_2_alg».proof.Proof.RefFacts

set_option maxRecDepth 16384

noncomputable section

namespace Cert.Gcn

open Cert.KernelIdeal Cert.KernelIdeal.Gen Cert.KernelIdeal.Stages Cert.ReferenceIdeal.ReadP Cert.ReferenceIdeal.Facts
open Idealize.ShloMosaic Idealize.ShloMosaic.TcCoe Idealize.SL.Sem Idealize.ShloMosaic.ValueIdx Idealize.ShloMosaic.RowIndex
open Cert.RealSums Cert.ScaledLayer

variable (m : (ℓ : Loc nD τ sig) → Buf (Elt Ideal) ℓ) (ρ : Dev nD → PrngReg) (c : Dev nD)
variable (hx : ∀ i, IsReal (x m c i)) (hw1 : ∀ i, IsReal (w1 m c i)) (hb1 : ∀ i, IsReal (b1 m c i))
  (hw2 : ∀ i, IsReal (w2 m c i))
include hx hw1 hb1 hw2

/-- LAYER 1: the kernel's sum at `(r, k)`, scaled by `dinv[r]`, is the reference's sum at `(r, k)`. -/
theorem layer1 (r : Fin 100000) (k : Fin 64) :
    agg1 m ρ c (ix2 r k) * dinv m c (ix1 r)
      = val_main_v43 (F := Ideal) (x m c) (edges m c) (w1 m c) (ix2 r k) := by
  have hK : agg1 m ρ c = Host.scatterAdd (F := Ideal) (φ := .f32)
      (rowScatterDims 100000 1700000 64 scatter_S100000x64_S1700000x1_S1700000x64_1_0_0_1.wf)
      (val_main_v41 (F := Ideal)) (val_main_v42 (F := Ideal) (edges m c))
      (Host.gather gather_S100000x64_S1700000x1_S1700000x64_1_0_n_n_0_1_164 (hs1 m ρ c)
        (val_main_v36 (F := Ideal) (edges m c))) := rfl
  have hR : val_main_v43 (F := Ideal) (x m c) (edges m c) (w1 m c) = Host.scatterAdd (F := Ideal) (φ := .f32)
      (rowScatterDims 100000 1700000 64 scatter_S100000x64_S1700000x1_S1700000x64_1_0_0_1.wf)
      (val_main_v41 (F := Ideal)) (val_main_v42 (F := Ideal) (edges m c))
      (val_main_v40 (F := Ideal) (x m c) (edges m c) (w1 m c)) := rfl
  rw [hK, hR, zeros64]
  refine scaled_layer_host nPos _ (val_main_v30 (F := Ideal) (x m c) (w1 m c)) (dinv m c)
    (val_main_v36 (F := Ideal) (edges m c)) (val_main_v42 (F := Ideal) (edges m c)) (val_main_v27 (F := Ideal) (edges m c))
    _ _ (fun e q => ?_) (msg1_apply (x m c) (edges m c) (w1 m c)) (h1_real (x m c) (w1 m c) hx hw1)
    (dinv_real (edges m c)) (wrap_keeps (edges m c)) r k
  -- a gathered row of the first kernel's array: the feature row at the clamped source, times that node's factor
  refine (gather_rows_apply nPos gather_S100000x64_S1700000x1_S1700000x64_1_0_n_n_0_1_164.wf (hs1 m ρ c)
    (val_main_v36 (F := Ideal) (edges m c)) e q).trans ?_
  refine (hs1_apply m ρ c (clampRow nPos (val_main_v36 (F := Ideal) (edges m c) (ix2 e 0))) q).trans ?_
  rw [h1_apply]

/-- BETWEEN THE LAYERS: the kernel's activation entry is the reference's. -/
theorem act_agrees (r : Fin 100000) (k : Fin 64) :
    max (agg1 m ρ c (ix2 r k) * dinv m c (ix1 r) + b1 m c (ix1 k)) 0
      = val_main_v47 (F := Ideal) (x m c) (edges m c) (w1 m c) (b1 m c) (ix2 r k) := by
  rw [act1_apply, layer1 m ρ c hx hw1 hb1 hw2 r k]

/-- The second kernel's array is the reference's second dense product, each row scaled by its node's factor. -/
theorem hs2_eq (r : Fin 100000) (q : Fin 32) :
    hs2 m ρ c (ix2 r q)
      = val_main_v71 (F := Ideal) (x m c) (edges m c) (w1 m c) (b1 m c) (w2 m c) (ix2 r q) * dinv m c (ix1 r) := by
  rw [hs2_apply, h2_apply]
  refine congrArg (fun s => s * dinv m c (ix1 r)) (Finset.sum_congr rfl fun k _ => ?_)
  rw [act_agrees m ρ c hx hw1 hb1 hw2 r k]

/-- LAYER 2: the kernel's second sum at `(r, q)`, scaled by `dinv[r]`, is the reference's second sum at `(r, q)`. -/
theorem layer2 (r : Fin 100000) (q : Fin 32) :
    agg2 m ρ c (ix2 r q) * dinv m c (ix1 r)
      = val_main_v84 (F := Ideal) (x m c) (edges m c) (w1 m c) (b1 m c) (w2 m c) (ix2 r q) := by
  have hK : agg2 m ρ c = Host.scatterAdd (F := Ideal) (φ := .f32)
      (rowScatterDims 100000 1700000 32 scatter_S100000x32_S1700000x1_S1700000x32_1_0_0_1.wf)
      (val_main_v82 (F := Ideal)) (val_main_v83 (F := Ideal) (edges m c))
      (Host.gather gather_S100000x32_S1700000x1_S1700000x32_1_0_n_n_0_1_132 (hs2 m ρ c)
        (val_main_v77 (F := Ideal) (edges m c))) := rfl
  have hR : val_main_v84 (F := Ideal) (x m c) (edges m c) (w1 m c) (b1 m c) (w2 m c) = Host.scatterAdd (F := Ideal) (φ := .f32)
      (rowScatterDims 100000 1700000 32 scatter_S100000x32_S1700000x1_S1700000x32_1_0_0_1.wf)
      (val_main_v82 (F := Ideal)) (val_main_v83 (F := Ideal) (edges m c))
      (val_main_v81 (F := Ideal) (x m c) (edges m c) (w1 m c) (b1 m c) (w2 m c)) := rfl
  rw [hK, hR, zeros32, dst_again, src_again]
  refine scaled_layer_host nPos _ (val_main_v71 (F := Ideal) (x m c) (edges m c) (w1 m c) (b1 m c) (w2 m c)) (dinv m c)
    (val_main_v36 (F := Ideal) (edges m c)) (val_main_v42 (F := Ideal) (edges m c)) (val_main_v27 (F := Ideal) (edges m c))
    _ _ (fun e q => ?_) (msg2_apply (x m c) (edges m c) (w1 m c) (b1 m c) (w2 m c))
    (h2_real (x m c) (edges m c) (w1 m c) (b1 m c) (w2 m c) hx hw1 hb1 hw2)
    (dinv_real (edges m c)) (wrap_keeps (edges m c)) r q
  refine (gather_rows_apply nPos gather_S100000x32_S1700000x1_S1700000x32_1_0_n_n_0_1_132.wf (hs2 m ρ c)
    (val_main_v36 (F := Ideal) (edges m c)) e q).trans ?_
  exact hs2_eq m ρ c hx hw1 hb1 hw2 (clampRow nPos (val_main_v36 (F := Ideal) (edges m c) (ix2 e 0))) q

/-- THE RESULT: after the run the kernel program's result buffer holds the reference's result term of the arguments. -/
theorem result_agrees :
    W7 m ρ c (Proc.devRef .tc main_v43)
      = val_main_v87 (F := Ideal) (x m c) (edges m c) (w1 m c) (b1 m c) (w2 m c) (b2 m c) := by
  rw [result_eq]
  funext i
  obtain ⟨r, q, rfl⟩ : ∃ (r : Fin 100000) (q : Fin 32), i = ix2 r q := ⟨i 0, i 1, eq_ix2 i⟩
  rw [val_main_v87_apply, addf_apply, mulf_apply]
  -- the column of factors broadcast along the 32 columns, read at (r, q), is dinv[r]
  have hb : broadcastInDim S100000x32 ![0, 1] bcast_S100000x1_S100000x32_0_1 (dinvCol m c) (ix2 r q)
      = dinv m c (ix1 r) := by
    refine (broadcastInDim_apply _ bcast_S100000x1_S100000x32_0_1 (dinvCol m c) (ix2 r q) (ix2 r (0 : Fin 1))
      (fun a => match a with
        | ⟨0, _⟩ => by show r.val = if (100000 : Nat) = 1 then 0 else r.val; rw [if_neg (by decide)]
        | ⟨1, _⟩ => by show 0 = if (1 : Nat) = 1 then 0 else q.val; rw [if_pos rfl])).trans ?_
    exact shapeCast_column_apply (dinv m c) shapeCasts_S100000_S100000x1 r 0
  rw [hb, layer2 m ρ c hx hw1 hb1 hw2 r q, Ideal.addf_def]

end Cert.Gcn
-- ==== Proof.lean ====
/-
  A two-layer graph convolution (GCN) on 100,000 nodes and 1,600,000 edges plus one self loop per node: the kernel
  program against its jnp reference, at the ideal instance (a float is an extended real, every operation exact).

  One layer of the reference: `h = x · W`; every edge `e` sends `h[src e] · (dinv[src e] · dinv[dst e])` to its destination;
  a node adds up what arrives and adds the bias. `dinv[v]` is `1/√deg[v]` where the in-degree `deg[v]` is positive and `0`
  elsewhere. Two layers with a `relu` between them.

  The kernel program computes the same with the normalisation split: the first kernel forms `(x · W1) · dinv` row by row;
  the host gathers those rows at the edge sources and adds them up at the edge destinations; the second kernel scales the
  sums by `dinv` again, adds `b1`, applies `relu`, multiplies by `W2` and scales by `dinv`; the host gathers and adds up once
  more, scales by `dinv` and adds `b2`. The destination's factor is the same for every message arriving at a node, so it
  may be taken out of the sum — provided multiplication distributes, which on the extended reals needs every quantity to
  be a real number: that is what the precondition (every float input finite) is used for, and the only place.

  The modules: RealSums (distributivity among reals), LibRowGatherScatter (which row a gather reads, where a scatter-add
  lands), ScaledLayer (one layer's law at one entry), LayerOneArray / LayerTwoArray (what each kernel leaves in its
  output array), KernelRun and KernelStages (the kernel program's run and its buffers at every boundary), RefRun /
  RefRead (the reference's run and its stages), RefFacts (the reference's stages: reals, messages in closed form),
  FiniteInputs (the precondition decoded), GcnEqual (the two results are equal). Here: the five claims.
-/
import proofs.«139203_j38070590112102_2_alg».proof.Defs
import proofs.«139203_j38070590112102_2_alg».proof.Proof.Gen.Kernel
import proofs.«139203_j38070590112102_2_alg».proof.Proof.Gen.Kernel.Skeleton
import proofs.«139203_j38070590112102_2_alg».proof.Proof.Gen.Kernel.Launch
import proofs.«139203_j38070590112102_2_alg».proof.Proof.Gen.Kernel.Points
import proofs.«139203_j38070590112102_2_alg».proof.Proof.Gen.Kernel.Frame
import proofs.«139203_j38070590112102_2_alg».proof.Proof.Gen.KernelIdeal
import proofs.«139203_j38070590112102_2_alg».proof.Proof.Gen.KernelIdeal.Skeleton
import proofs.«139203_j38070590112102_2_alg».proof.Proof.Gen.KernelIdeal.Launch
import proofs.«139203_j38070590112102_2_alg».proof.Proof.Gen.KernelIdeal.Points
import proofs.«139203_j38070590112102_2_alg».proof.Proof.Gen.KernelIdeal.Frame
import proofs.«139203_j38070590112102_2_alg».proof.Proof.Gen.ReferenceIdeal
import proofs.«139203_j38070590112102_2_alg».proof.Proof.Gen.Pre_finite_inputs
import proofs.«139203_j38070590112102_2_alg».proof.Proof.RefRun
import proofs.«139203_j38070590112102_2_alg».proof.Proof.RefRead
import proofs.«139203_j38070590112102_2_alg».proof.Proof.KernelRun
import proofs.«139203_j38070590112102_2_alg».proof.Proof.FiniteInputs
import proofs.«139203_j38070590112102_2_alg».proof.Proof.GcnEqual
import Idealize.ShloMosaic.Adequacy
import Idealize.ShloMosaic.Init

noncomputable section

namespace Cert.Proof

open Idealize.ShloMosaic Idealize.ShloMosaic.TcCoe Idealize.SL.Sem

/-- The kernel program as printed runs to its end without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel program is the printed text read at the ideal instance. -/
theorem preserves : Cert.preserves_Kernel_KernelIdeal := trivial

/-- From memories that agree on the six arguments, the float ones finite, both programs run to their ends and leave the
    same result: the kernel program's result buffer holds the last boundary's contents (its run), those contents are the
    reference's result term of the arguments (GcnEqual, with the inputs real by the precondition), and the reference's
    run ends at that term. -/
theorem algebraic : Cert.algebraic_KernelIdeal_ReferenceIdeal := by
  intro m ρ m' ρ' hpre hagree
  refine ⟨fun c => Cert.KernelIdeal.Gen.W7 m ρ c (Proc.devRef .tc Cert.KernelIdeal.main_v43),
    Cert.KernelIdeal.Run.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3, h4, -⟩ := Cert.FiniteInputs.real_of_pre _ _ _ _ _ _ (hpre c)
  rw [Cert.ReferenceIdeal.ReadP.val_main_v87_eq, (hagree c).1, (hagree c).2.1, (hagree c).2.2.1, (hagree c).2.2.2.1,
    (hagree c).2.2.2.2.1, (hagree c).2.2.2.2.2]
  exact (Cert.Gcn.result_agrees m ρ c h0 h2 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
